-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100000 : Shape := ⟨2, ![1024, 100000]⟩
abbrev S100000x32 : Shape := ⟨2, ![100000, 32]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_

variable [Facts]

def fn {F : FTy → Type} [FloatOps F] (main_arg0 : FVec F S1024x100000 .f32) (main_arg1 : FVec F S100000x32 .f32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  main_v8
-- ==== Kernel.lean ====
abbrev S1024x100000 : Shape := ⟨2, ![1024, 100000]⟩
abbrev S100000x32 : Shape := ⟨2, ![100000, 32]⟩
abbrev S100000x1024 : Shape := ⟨2, ![100000, 1024]⟩
abbrev S32x100000 : Shape := ⟨2, ![32, 100000]⟩
abbrev S32x1024 : Shape := ⟨2, ![32, 1024]⟩
abbrev S32x2048 : Shape := ⟨2, ![32, 2048]⟩
abbrev S2048x1024 : Shape := ⟨2, ![2048, 1024]⟩
abbrev S1024x32 : Shape := ⟨2, ![1024, 32]⟩

abbrev nBuf : Space → Nat
  | .hbm => 6
  | .vmem => 5
  | .smem => 0
  | _ => 0

abbrev bufTy : (tb : Table) → Fin (tcTables nBuf tb) → BufTy
  | .hbm, ⟨0, _⟩ => ⟨S1024x100000, .f32⟩
  | .hbm, ⟨1, _⟩ => ⟨S100000x32, .f32⟩
  | .hbm, ⟨2, _⟩ => ⟨S100000x1024, .f32⟩
  | .hbm, ⟨3, _⟩ => ⟨S32x100000, .f32⟩
  | .hbm, ⟨4, _⟩ => ⟨S32x1024, .f32⟩
  | .hbm, ⟨5, _⟩ => ⟨S1024x32, .f32⟩
  | .local _ .vmem, ⟨0, _⟩ => ⟨S32x2048, .f32⟩
  | .local _ .vmem, ⟨1, _⟩ => ⟨S32x2048, .f32⟩
  | .local _ .vmem, ⟨2, _⟩ => ⟨S2048x1024, .f32⟩
  | .local _ .vmem, ⟨3, _⟩ => ⟨S2048x1024, .f32⟩
  | .local _ .vmem, ⟨4, _⟩ => ⟨S32x1024, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![49], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c48_i32 : BitVec 32 := 48#32
  let v3 : BitVec 1 := Scalar.cmpi .slt arg0 c48_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c48_i32_2 : BitVec 32 := 48#32
  let v6 : BitVec 1 := Scalar.cmpi .eq arg0 c48_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S1024x100000_S100000x1024_1_0 : S1024x100000.Transposes [1, 0] S100000x1024
  transposes_S100000x32_S32x100000_1_0 : S100000x32.Transposes [1, 0] S32x100000
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  iota_S32x2048_d1_w32 : S32x2048.Iotas .tc 32 [1]
  iota_S2048x1024_d0_w32 : S2048x1024.Iotas .tc 32 [0]
  transposes_S32x1024_S1024x32_1_0 : S32x1024.Transposes [1, 0] S1024x32
  dot_S32x2048_S2048x1024_S32x1024_1_0_0_1_n_n_wf : DotDims.WF S32x2048 S2048x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x2048.size a < S32x100000.size a
  hwx0_0 : ∀ i : grid0.Coords, EltTy.bits .f32 = 32 ∨ (Rect.unit (s := S32x100000) (fun a => cc0_transform_0 i a * S32x2048.size a) (fun a => (Pipeline.Clip.of (cc0_transform_0 i a) (S32x2048.size a) (S32x100000.size a)).extent (S32x2048.size a)) fun a => Pipeline.Clip.inb (Pipeline.Clip.ok_of (hstart0_0 i a))).WholeWords (EltTy.packing .f32)
  hwxs0_0 : ∀ i : grid0.Coords, EltTy.bits .f32 = 32 ∨ (Rect.unit (s := S32x2048) (fun _ => 0) (fun a => (Pipeline.Clip.of (cc0_transform_0 i a) (S32x2048.size a) (S32x100000.size a)).extent (S32x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x1024.size a < S100000x1024.size a
  hwx0_1 : ∀ i : grid0.Coords, EltTy.bits .f32 = 32 ∨ (Rect.unit (s := S100000x1024) (fun a => cc0_transform_1 i a * S2048x1024.size a) (fun a => (Pipeline.Clip.of (cc0_transform_1 i a) (S2048x1024.size a) (S100000x1024.size a)).extent (S2048x1024.size a)) fun a => Pipeline.Clip.inb (Pipeline.Clip.ok_of (hstart0_1 i a))).WholeWords (EltTy.packing .f32)
  hwxs0_1 : ∀ i : grid0.Coords, EltTy.bits .f32 = 32 ∨ (Rect.unit (s := S2048x1024) (fun _ => 0) (fun a => (Pipeline.Clip.of (cc0_transform_1 i a) (S2048x1024.size a) (S100000x1024.size a)).extent (S2048x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S32x1024.size a
  hwx0_2 : ∀ i : grid0.Coords, EltTy.bits .f32 = 32 ∨ (Rect.block (s := S32x1024) S32x1024.size (cc0_transform_2 i) (hinb0_2 i)).WholeWords (EltTy.packing .f32)

variable [Facts₀]

def dot_S32x2048_S2048x1024_S32x1024_1_0_0_1_n_n : DotDims S32x2048 S2048x1024 S32x1024 where
  lhsContracting := [1]
  rhsContracting := [0]
  lhsNonContracting := [0]
  rhsNonContracting := [1]
  lhsBatch := []
  rhsBatch := []
  wf := dot_S32x2048_S2048x1024_S32x1024_1_0_0_1_n_n_wf

abbrev win0_0 : Pipeline.Window sig grid0 :=
  Pipeline.Window.ofSpecClip (Memref.whole main_v1) S32x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S2048x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v2) S32x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S1024x100000 : Shape := ⟨2, ![1024, 100000]⟩
abbrev S100000x32 : Shape := ⟨2, ![100000, 32]⟩
abbrev S1024x32 : Shape := ⟨2, ![1024, 32]⟩

abbrev nBuf : Space → Nat
  | .hbm => 3
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S100000x32, .f32⟩
  | .hbm, ⟨2, _⟩ => ⟨S1024x32, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S1024x100000_S100000x32_S1024x32_1_0_0_1_n_n_wf : DotDims.WF S1024x100000 S100000x32 S1024x32 [1] [0] [0] [1] [] []

variable [Facts₀]

def dot_S1024x100000_S100000x32_S1024x32_1_0_0_1_n_n : DotDims S1024x100000 S100000x32 S1024x32 where
  lhsContracting := [1]
  rhsContracting := [0]
  lhsNonContracting := [0]
  rhsNonContracting := [1]
  lhsBatch := []
  rhsBatch := []
  wf := dot_S1024x100000_S100000x32_S1024x32_1_0_0_1_n_n_wf

class Facts : Prop extends Facts₀ where

variable [Facts]
-- ==== Proof.KernelShared.lean ====
/-
  The three control cases of the accumulation body, decided over the 49 grid points, and the names the
  per-case runs of the body share.

  The grid walks the contracted axis of length 100000 in 49 steps of 2048. Point 0 zeroes the
  accumulator and adds the first partial product; points 1..47 add a partial product; point 48 adds the
  partial product of the last, partial step, where only the first 1696 of the 2048 positions lie inside
  the arrays and both operands are replaced by zero past them.
-/
import proofs.«169486_g74792560493228_cont_9to1c4b_67_9_alg».proof.Proof.Gen.Kernel.Frame
import proofs.«169486_g74792560493228_cont_9to1c4b_67_9_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The zeroing branch is taken at the first point only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- The full-step branch is taken at every point but the last. -/
theorem hcond2 : ∀ t : Fin cfg0.N, k0_cond2 (grid0.coords t) = 1#1 ↔ t.val < 48 :=
  (by decide +kernel : ∀ t : Fin grid0.N, k0_cond2 (grid0.coords t) = 1#1 ↔ t.val < 48)
/-- The partial-step branch is taken at the last point only. -/
theorem hcond3 : ∀ t : Fin cfg0.N, k0_cond3 (grid0.coords t) = 1#1 ↔ t.val = 48 :=
  (by decide +kernel : ∀ t : Fin grid0.N, k0_cond3 (grid0.coords t) = 1#1 ↔ t.val = 48)

/-- One staging buffer of the accumulator's window, through which its contents are stated (the choice does
    not matter where the stores cover the block). -/
abbrev VO2 : View sig .tc .vmem S32x1024 .f32 := (Memref.whole cc0_stg2_0 : Memref sig .tc .vmem S32x1024 .f32).view

/-- Each window's current staging memref at point `t`, and its wholeness. -/
abbrev ms0 (t : Fin cfg0.N) : Memref sig .tc .vmem S32x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x1024 .f32 := win0_2.stage (cfg0.slots t 2)
abbrev hs2 (t : Fin cfg0.N) : (ms2 t).IsWhole := hstage0_2 ((cfg0.slots t 2).cast nbuf0_2)

end Cert.Kernel.Hand

end
-- ==== Proof.KernelRunA.lean ====
/-
  The accumulation body run on whole staging buffers in control case A: the first point, where the accumulator is zeroed and the first partial product added.
-/
import proofs.«169486_g74792560493228_cont_9to1c4b_67_9_alg».proof.Proof.KernelShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The stores the body makes into the accumulator's buffer in case A, last first, with the proof that on
    whole staging buffers — the operands' at contents `x0`, `x1`, the accumulator's at anything — the
    body runs to a continuation that is handed the operands' buffers as they were and the accumulator's with
    those stores made. -/
noncomputable def kernelRun0_A (c : Dev nD) (i : grid0.Coords) (arg1 : Memref sig .tc .vmem S32x2048 .f32) (harg1 : arg1.IsWhole)
    (arg2 : Memref sig .tc .vmem S2048x1024 .f32) (harg2 : arg2.IsWhole) (arg3 : Memref sig .tc .vmem S32x1024 .f32) (harg3 : arg3.IsWhole)
    (hc1 : k0_cond1 i = 1#1) (hc2 : k0_cond2 i = 1#1) (hc3 : ¬k0_cond3 i = 1#1)
    (x0 : Vec F S32x2048 .f32) (x1 : Vec F S2048x1024 .f32) :
    { L : List (View.Piece (Elt F) S32x1024 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__mm_kernel i arg1 harg1 arg2 harg2 arg3 harg3) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.KernelRunB.lean ====
/-
  The accumulation body run on whole staging buffers in control case B: a point after the first and before the last, where a full partial product is added to the running contents.
-/
import proofs.«169486_g74792560493228_cont_9to1c4b_67_9_alg».proof.Proof.KernelRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The stores the body makes into the accumulator's buffer in case B, last first, with the proof that on
    whole staging buffers — the operands' at contents `x0`, `x1`, the accumulator's at its running contents `xo` — the
    body runs to a continuation that is handed the operands' buffers as they were and the accumulator's with
    those stores made. -/
noncomputable def kernelRun0_B (c : Dev nD) (i : grid0.Coords) (arg1 : Memref sig .tc .vmem S32x2048 .f32) (harg1 : arg1.IsWhole)
    (arg2 : Memref sig .tc .vmem S2048x1024 .f32) (harg2 : arg2.IsWhole) (arg3 : Memref sig .tc .vmem S32x1024 .f32) (harg3 : arg3.IsWhole)
    (hc1 : ¬k0_cond1 i = 1#1) (hc2 : k0_cond2 i = 1#1) (hc3 : ¬k0_cond3 i = 1#1)
    (x0 : Vec F S32x2048 .f32) (x1 : Vec F S2048x1024 .f32) (xo : Vec F S32x1024 .f32) :
    { L : List (View.Piece (Elt F) S32x1024 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__mm_kernel i arg1 harg1 arg2 harg2 arg3 harg3) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.KernelRunC.lean ====
/-
  The accumulation body run on whole staging buffers in control case C: the last point, where the partial product of the operands zeroed past position 1696 is added to the running contents.
-/
import proofs.«169486_g74792560493228_cont_9to1c4b_67_9_alg».proof.Proof.KernelRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The stores the body makes into the accumulator's buffer in case C, last first, with the proof that on
    whole staging buffers — the operands' at contents `x0`, `x1`, the accumulator's at its running contents `xo` — the
    body runs to a continuation that is handed the operands' buffers as they were and the accumulator's with
    those stores made. -/
noncomputable def kernelRun0_C (c : Dev nD) (i : grid0.Coords) (arg1 : Memref sig .tc .vmem S32x2048 .f32) (harg1 : arg1.IsWhole)
    (arg2 : Memref sig .tc .vmem S2048x1024 .f32) (harg2 : arg2.IsWhole) (arg3 : Memref sig .tc .vmem S32x1024 .f32) (harg3 : arg3.IsWhole)
    (hc1 : ¬k0_cond1 i = 1#1) (hc2 : ¬k0_cond2 i = 1#1) (hc3 : k0_cond3 i = 1#1)
    (x0 : Vec F S32x2048 .f32) (x1 : Vec F S2048x1024 .f32) (xo : Vec F S32x1024 .f32) :
    { L : List (View.Piece (Elt F) S32x1024 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__mm_kernel i arg1 harg1 arg2 harg2 arg3 harg3) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.KernelPieces.lean ====
/-
  What each control case leaves in the accumulator's buffer, as the body's own arithmetic: the stores found by
  the runs, read back, are the zeroing followed by one accumulation step (first point), one accumulation step
  (middle points), or the masked accumulation step (last point). And the masked step does not depend on what
  the operands' buffers hold past position 1696 of the contracted axis: the comparison of the position against
  1696 selects the zero word there, whatever the buffer holds.
-/
import proofs.«169486_g74792560493228_cont_9to1c4b_67_9_alg».proof.Proof.KernelRunC
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- First point: the zeroing store, then the step over the zeros just stored. -/
theorem outA_eq (c : Dev nD) (i : grid0.Coords) (arg1 : Memref sig .tc .vmem S32x2048 .f32) (harg1 : arg1.IsWhole)
    (arg2 : Memref sig .tc .vmem S2048x1024 .f32) (harg2 : arg2.IsWhole) (arg3 : Memref sig .tc .vmem S32x1024 .f32) (harg3 : arg3.IsWhole)
    (hc1 : k0_cond1 i = 1#1) (hc2 : k0_cond2 i = 1#1) (hc3 : ¬k0_cond3 i = 1#1)
    (x0 : Vec F S32x2048 .f32) (x1 : Vec F S2048x1024 .f32) :
    VO2.read (Elt F) (VO2.writes (Elt F) VO2.junk (kernelRun0_A c i arg1 harg1 arg2 harg2 arg3 harg3 hc1 hc2 hc3 x0 x1).1)
      = k0_pay2 (k0_pay1 (F := F)) x0 x1 := by
  rw [View.read_writes_junk_eq_canon]
  unfold kernelRun0_A; dsimp only
  rw [View.canon_cons_unit_zero hz2]
  sl_unfold_words
  rw [View.readCov_unit_zero _ hz2]
  simp only [View.readAt_eq_ld, harg1.read_unread, harg2.read_unread,
    View.ld_unit_zero (S := S32x2048) hz2, View.ld_unit_zero (S := S2048x1024) hz2]

/-- A middle point: one step over the running contents. -/
theorem outB_eq (c : Dev nD) (i : grid0.Coords) (arg1 : Memref sig .tc .vmem S32x2048 .f32) (harg1 : arg1.IsWhole)
    (arg2 : Memref sig .tc .vmem S2048x1024 .f32) (harg2 : arg2.IsWhole) (arg3 : Memref sig .tc .vmem S32x1024 .f32) (harg3 : arg3.IsWhole)
    (hc1 : ¬k0_cond1 i = 1#1) (hc2 : k0_cond2 i = 1#1) (hc3 : ¬k0_cond3 i = 1#1)
    (x0 : Vec F S32x2048 .f32) (x1 : Vec F S2048x1024 .f32) (xo : Vec F S32x1024 .f32) :
    VO2.read (Elt F) (VO2.writes (Elt F) VO2.junk (kernelRun0_B c i arg1 harg1 arg2 harg2 arg3 harg3 hc1 hc2 hc3 x0 x1 xo).1)
      = k0_pay2 xo x0 x1 := by
  rw [View.read_writes_junk_eq_canon]
  unfold kernelRun0_B; dsimp only
  rw [View.canon_unit_zero hz2]
  simp only [View.readAt_eq_ld, harg1.read_unread, harg2.read_unread, harg3.read_unread,
    View.ld_unit_zero (S := S32x2048) hz2, View.ld_unit_zero (S := S2048x1024) hz2, View.ld_unit_zero (S := S32x1024) hz2]

/-- The last point: the masked step over the running contents. -/
theorem outC_eq (c : Dev nD) (i : grid0.Coords) (arg1 : Memref sig .tc .vmem S32x2048 .f32) (harg1 : arg1.IsWhole)
    (arg2 : Memref sig .tc .vmem S2048x1024 .f32) (harg2 : arg2.IsWhole) (arg3 : Memref sig .tc .vmem S32x1024 .f32) (harg3 : arg3.IsWhole)
    (hc1 : ¬k0_cond1 i = 1#1) (hc2 : ¬k0_cond2 i = 1#1) (hc3 : k0_cond3 i = 1#1)
    (x0 : Vec F S32x2048 .f32) (x1 : Vec F S2048x1024 .f32) (xo : Vec F S32x1024 .f32) :
    VO2.read (Elt F) (VO2.writes (Elt F) VO2.junk (kernelRun0_C c i arg1 harg1 arg2 harg2 arg3 harg3 hc1 hc2 hc3 x0 x1 xo).1)
      = k0_pay3 x0 x1 xo := by
  rw [View.read_writes_junk_eq_canon]
  unfold kernelRun0_C; dsimp only
  rw [View.canon_unit_zero hz2]
  simp only [View.readAt_eq_ld, harg1.read_unread, harg2.read_unread, harg3.read_unread,
    View.ld_unit_zero (S := S32x2048) hz2, View.ld_unit_zero (S := S2048x1024) hz2, View.ld_unit_zero (S := S32x1024) hz2]

/-- In each case the stores cover the accumulator's block (the last one is whole). -/
theorem coverA (c : Dev nD) (i : grid0.Coords) (arg1 : Memref sig .tc .vmem S32x2048 .f32) (harg1 : arg1.IsWhole)
    (arg2 : Memref sig .tc .vmem S2048x1024 .f32) (harg2 : arg2.IsWhole) (arg3 : Memref sig .tc .vmem S32x1024 .f32) (harg3 : arg3.IsWhole)
    (hc1 : k0_cond1 i = 1#1) (hc2 : k0_cond2 i = 1#1) (hc3 : ¬k0_cond3 i = 1#1)
    (x0 : Vec F S32x2048 .f32) (x1 : Vec F S2048x1024 .f32) (y : S32x1024.Idx) :
    ∃ pc ∈ (kernelRun0_A c i arg1 harg1 arg2 harg2 arg3 harg3 hc1 hc2 hc3 x0 x1).1, y ∈ pc.1.set :=
by
  unfold kernelRun0_A; dsimp only
  exact ⟨_, List.mem_cons_self, View.mem_set_unit_zero hz2 inb_S32x1024_S32x1024_0_0 y⟩
theorem coverB (c : Dev nD) (i : grid0.Coords) (arg1 : Memref sig .tc .vmem S32x2048 .f32) (harg1 : arg1.IsWhole)
    (arg2 : Memref sig .tc .vmem S2048x1024 .f32) (harg2 : arg2.IsWhole) (arg3 : Memref sig .tc .vmem S32x1024 .f32) (harg3 : arg3.IsWhole)
    (hc1 : ¬k0_cond1 i = 1#1) (hc2 : k0_cond2 i = 1#1) (hc3 : ¬k0_cond3 i = 1#1)
    (x0 : Vec F S32x2048 .f32) (x1 : Vec F S2048x1024 .f32) (xo : Vec F S32x1024 .f32) (y : S32x1024.Idx) :
    ∃ pc ∈ (kernelRun0_B c i arg1 harg1 arg2 harg2 arg3 harg3 hc1 hc2 hc3 x0 x1 xo).1, y ∈ pc.1.set :=
by
  unfold kernelRun0_B; dsimp only
  exact ⟨_, List.mem_cons_self, View.mem_set_unit_zero hz2 inb_S32x1024_S32x1024_0_0 y⟩
theorem coverC (c : Dev nD) (i : grid0.Coords) (arg1 : Memref sig .tc .vmem S32x2048 .f32) (harg1 : arg1.IsWhole)
    (arg2 : Memref sig .tc .vmem S2048x1024 .f32) (harg2 : arg2.IsWhole) (arg3 : Memref sig .tc .vmem S32x1024 .f32) (harg3 : arg3.IsWhole)
    (hc1 : ¬k0_cond1 i = 1#1) (hc2 : ¬k0_cond2 i = 1#1) (hc3 : k0_cond3 i = 1#1)
    (x0 : Vec F S32x2048 .f32) (x1 : Vec F S2048x1024 .f32) (xo : Vec F S32x1024 .f32) (y : S32x1024.Idx) :
    ∃ pc ∈ (kernelRun0_C c i arg1 harg1 arg2 harg2 arg3 harg3 hc1 hc2 hc3 x0 x1 xo).1, y ∈ pc.1.set :=
by
  unfold kernelRun0_C; dsimp only
  exact ⟨_, List.mem_cons_self, View.mem_set_unit_zero hz2 inb_S32x1024_S32x1024_0_0 y⟩

/-- A position below 2048 compares (signed, as 32-bit words) below 1696 exactly when it is. -/
theorem slt_1696 : ∀ n : Fin 2048, IntOp.cmpi .slt (BitVec.ofNat 32 n.val) 1696#32 = 1#1 ↔ n.val < 1696 := by
  decide +kernel

end Cert.Kernel.Hand

end
-- ==== Proof.KernelData.lean ====
/-
  The proof data of the accumulation over the 49 grid points, the body's obligation at every point, the run of
  @main and the frame.

  After point t the accumulator's buffer holds the zero block plus the partial products of steps 0..t, the last
  one (t = 48) over operands zeroed past position 1696. The operands' buffers hold their blocks on the part
  inside the arrays and anything past it; nothing the body leaves in the accumulator depends on that remainder:
  before the last point the blocks lie inside the arrays, and at the last point the remainder is masked.
-/
import proofs.«169486_g74792560493228_cont_9to1c4b_67_9_alg».proof.Proof.KernelPieces
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operands' blocks, filled out with the zero word past the arrays' end -/

def xb0 (c : Dev nD) (t : Fin cfg0.N) : Vec F S32x2048 .f32 :=
  win0_0.fill (grid0.coords t) (fun _ => Scalar.ofBits .f32 0#32) (iblk m c 0 t)
def xb1 (c : Dev nD) (t : Fin cfg0.N) : Vec F S2048x1024 .f32 :=
  win0_1.fill (grid0.coords t) (fun _ => Scalar.ofBits .f32 0#32) (iblk m c 1 t)

/-! ## The accumulation -/

/-- What the accumulator's buffer holds after the body at point `n`. -/
def acc (c : Dev nD) : (n : ℕ) → n < cfg0.N → Vec F S32x1024 .f32
  | 0, hn => k0_pay2 (k0_pay1 (F := F)) (xb0 m c ⟨0, hn⟩) (xb1 m c ⟨0, hn⟩)
  | n + 1, hn =>
    if n + 1 < 48 then k0_pay2 (acc c n (Nat.lt_of_succ_lt hn)) (xb0 m c ⟨n + 1, hn⟩) (xb1 m c ⟨n + 1, hn⟩)
    else k0_pay3 (xb0 m c ⟨n + 1, hn⟩) (xb1 m c ⟨n + 1, hn⟩) (acc c n (Nat.lt_of_succ_lt hn))

theorem acc_first (c : Dev nD) (t : Fin cfg0.N) (h : t.val = 0) :
    acc m c t.val t.isLt = k0_pay2 (k0_pay1 (F := F)) (xb0 m c t) (xb1 m c t) := by
  obtain ⟨n, hn⟩ := t
  cases n with
  | zero => rfl
  | succ n => exact absurd h (Nat.succ_ne_zero _)

theorem acc_middle (c : Dev nD) (t : Fin cfg0.N) (h0 : t.val ≠ 0) (h : t.val < 48) :
    acc m c t.val t.isLt = k0_pay2 (acc m c (t.val - 1) (Nat.lt_of_le_of_lt (Nat.sub_le _ _) t.isLt)) (xb0 m c t) (xb1 m c t) := by
  obtain ⟨n, hn⟩ := t
  cases n with
  | zero => exact absurd rfl h0
  | succ n => exact (if_pos h).trans rfl

theorem acc_last (c : Dev nD) (t : Fin cfg0.N) (h0 : t.val ≠ 0) (h : ¬t.val < 48) :
    acc m c t.val t.isLt = k0_pay3 (xb0 m c t) (xb1 m c t) (acc m c (t.val - 1) (Nat.lt_of_le_of_lt (Nat.sub_le _ _) t.isLt)) := by
  obtain ⟨n, hn⟩ := t
  cases n with
  | zero => exact absurd rfl h0
  | succ n => exact (if_neg h).trans rfl

/-! ## The proof data -/

/-- The arrays as the region finds them; after the body at point `t` the operands' buffers at their blocks
    (filled out with zeros) and the accumulator's at `acc`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xb0 m c t
    | ⟨1, _⟩ => xb1 m c t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = xb0 m c t := by dsimp only [dats]
theorem after1 (c : Dev nD) (t : Fin cfg0.N) : (dats m 0 c).after 1 t = xb1 m c t := by dsimp only [dats]
theorem after2 (c : Dev nD) (t : Fin cfg0.N) : (dats m 0 c).after 2 t = acc m c t.val t.isLt := by dsimp only [dats]

/-- The operands are fetched at every point: their buffers hold the block where the fetch filled them. -/
theorem before0 (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk; rw [A_eq]
theorem before1 (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk; rw [A_eq]

/-- No point is idle for the accumulator: at each, one of the three branches stores into it. -/
theorem hlive2 (i : grid0.Coords) : cfg0.idle 2 i = false := by
  have h : ∀ n : Fin 49,
      (!(Scalar.cmpi .ne (Scalar.extui (Scalar.cmpi .eq (BitVec.ofNat 32 n.val) 0#32)) 0#32 == 1#1)
        && !(Scalar.cmpi .ne (Scalar.extui (Scalar.cmpi .slt (BitVec.ofNat 32 n.val) 48#32)) 0#32 == 1#1)
        && !(Scalar.cmpi .ne (Scalar.extui (Scalar.cmpi .eq (BitVec.ofNat 32 n.val) 48#32)) 0#32 == 1#1)) = false := by
    decide +kernel
  exact h (i 0)

/-- At the first point the accumulator's buffer holds anything; -/
theorem before2_first (c : Dev nD) (t : Fin cfg0.N) (h0 : t.val = 0) (d) : (dats m 0 c).before 2 t d = d :=
  Dat.before_out_reset _ 2 rfl t (.inl h0) d
/-- at a later one what the body left at the point before: it is written back at the last point only. -/
theorem before2_later (c : Dev nD) (t : Fin cfg0.N) (h0 : t.val ≠ 0) (d) :
    (dats m 0 c).before 2 t d = acc m c (t.val - 1) (Nat.lt_of_le_of_lt (Nat.sub_le _ _) t.isLt) := by
  have hN : t.val < 49 := lt_of_lt_of_eq t.isLt (show cfg0.N = 49 from N_0)
  rw [Dat.before_out_kept _ 2 rfl t h0 (Bool.eq_false_iff.mpr fun h => by have := (flush0_2 _).mp h; dsimp only at this; omega)
    hlive2 (fun _ _ => rfl)]
  dsimp only [dats]

/-- Before the last point the operands' blocks lie inside the arrays: the fetch fills the whole buffer. -/
theorem clip0_none : ∀ t : Fin cfg0.N, t.val < 48 → ∀ a, (cfg0.win 0).clip (cfg0.grid.coords t) a = none :=
  (by decide +kernel : ∀ t : Fin grid0.N, t.val < 48 → ∀ a, win0_0.clip (grid0.coords t) a = none)
theorem clip1_none : ∀ t : Fin cfg0.N, t.val < 48 → ∀ a, (cfg0.win 1).clip (cfg0.grid.coords t) a = none :=
  (by decide +kernel : ∀ t : Fin grid0.N, t.val < 48 → ∀ a, win0_1.clip (grid0.coords t) a = none)
/-- At the last point the fetch fills positions 0..1695 of the contracted axis. -/
theorem xsize0_last : ∀ t : Fin cfg0.N, ¬t.val < 48 → ∀ a, win0_0.xsize (grid0.coords t) a = (![32, 1696] : Fin 2 → ℕ) a :=
  (by decide +kernel : ∀ t : Fin grid0.N, ¬t.val < 48 → ∀ a, win0_0.xsize (grid0.coords t) a = (![32, 1696] : Fin 2 → ℕ) a)
theorem xsize1_last : ∀ t : Fin cfg0.N, ¬t.val < 48 → ∀ a, win0_1.xsize (grid0.coords t) a = (![1696, 1024] : Fin 2 → ℕ) a :=
  (by decide +kernel : ∀ t : Fin grid0.N, ¬t.val < 48 → ∀ a, win0_1.xsize (grid0.coords t) a = (![1696, 1024] : Fin 2 → ℕ) a)

end Cert.Kernel.Hand

end
-- ==== Proof.LibSelectAgree.lean ====
/-
  A masked selection depends on its first alternative only where the mask is set.

  `select c a b` takes `a` where the one-bit mask `c` is one and `b` elsewhere; so two vectors `a`, `a'` that agree
  at every index where the mask is one select alike against a common alternative, whatever they hold elsewhere (the
  part of a staging buffer past an array's end, replaced by zero before it is used).
-/
import Idealize.ShloMosaic.Lib.ValueIdx

noncomputable section

namespace Cert.LibSelectAgree

open Idealize.ShloMosaic

/-- Two vectors that agree wherever the mask is set select alike against a common alternative. -/
theorem select_congr_on {s : Shape} {α : Type} (c : IVec s 1) (a a' b : s.Idx → α) (h : ∀ j, c j = 1#1 → a j = a' j) :
    select c a b = select c a' b := by
  funext j
  unfold select Scalar.select
  split
  · next hj => exact h j hj
  · rfl

end Cert.LibSelectAgree

end
-- ==== Proof.KernelMask.lean ====
/-
  The masked accumulation step of the last grid point depends on the operands' buffers only through the part
  the fetch filled: positions 0..1695 of the contracted axis. Past it both operands are replaced by the zero
  word before they are multiplied, so two buffers that agree on the filled part give the same step.
-/
import proofs.«169486_g74792560493228_cont_9to1c4b_67_9_alg».proof.Proof.KernelData
import proofs.«169486_g74792560493228_cont_9to1c4b_67_9_alg».proof.Proof.LibSelectAgree

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The masked step reads the operands' buffers only where the fetch filled them -/

theorem pay3_fill (i : grid0.Coords)
    (hx0 : ∀ a, win0_0.xsize i a = (![32, 1696] : Fin 2 → ℕ) a) (hx1 : ∀ a, win0_1.xsize i a = (![1696, 1024] : Fin 2 → ℕ) a)
    (d0 d0' : S32x2048.Idx → Elt F .f32) (g0 : (win0_0.xblock i).Idx → Elt F .f32)
    (d1 d1' : S2048x1024.Idx → Elt F .f32) (g1 : (win0_1.xblock i).Idx → Elt F .f32) (xo : Vec F S32x1024 .f32) :
    k0_pay3 (win0_0.fill i d0 g0) (win0_1.fill i d1 g1) xo = k0_pay3 (win0_0.fill i d0' g0) (win0_1.fill i d1' g1) xo := by
  have e0 : select (cmpi .slt (iota .tc S32x2048 32 [1] iota_S32x2048_d1_w32) (broadcast S32x2048 1696#32))
        (shapeCast S32x2048 (win0_0.fill i d0 g0) shapeCasts_S32x2048_S32x2048) (broadcast S32x2048 (Scalar.ofBits .f32 0x00000000#32 : F .f32))
      = select (cmpi .slt (iota .tc S32x2048 32 [1] iota_S32x2048_d1_w32) (broadcast S32x2048 1696#32))
        (shapeCast S32x2048 (win0_0.fill i d0' g0) shapeCasts_S32x2048_S32x2048) (broadcast S32x2048 (Scalar.ofBits .f32 0x00000000#32 : F .f32)) := by
    refine Cert.LibSelectAgree.select_congr_on _ _ _ _ fun j hj => ?_
    refine (congrFun (shapeCast_self (s := S32x2048) (win0_0.fill i d0 g0) shapeCasts_S32x2048_S32x2048) j).trans
      (Eq.trans ?_ (congrFun (shapeCast_self (s := S32x2048) (win0_0.fill i d0' g0) shapeCasts_S32x2048_S32x2048) j).symm)
    rw [show cmpi .slt (iota .tc S32x2048 32 [1] iota_S32x2048_d1_w32) (broadcast S32x2048 1696#32) j
        = IntOp.cmpi .slt (iota .tc S32x2048 32 [1] iota_S32x2048_d1_w32 j) 1696#32 from rfl, iota_single_apply] at hj
    have hm : win0_0.moved i j = true := (win0_0.moved_iff i j).mpr fun a => by
      rw [hx0 a]
      match a with
      | ⟨0, _⟩ => exact (j 0).isLt
      | ⟨1, _⟩ => exact (slt_1696 (j 1)).mp hj
    unfold Window.fill; rw [dif_pos hm, dif_pos hm]
  have e1 : select (cmpi .slt (iota .tc S2048x1024 32 [0] iota_S2048x1024_d0_w32) (broadcast S2048x1024 1696#32))
        (shapeCast S2048x1024 (win0_1.fill i d1 g1) shapeCasts_S2048x1024_S2048x1024) (broadcast S2048x1024 (Scalar.ofBits .f32 0x00000000#32 : F .f32))
      = select (cmpi .slt (iota .tc S2048x1024 32 [0] iota_S2048x1024_d0_w32) (broadcast S2048x1024 1696#32))
        (shapeCast S2048x1024 (win0_1.fill i d1' g1) shapeCasts_S2048x1024_S2048x1024) (broadcast S2048x1024 (Scalar.ofBits .f32 0x00000000#32 : F .f32)) := by
    refine Cert.LibSelectAgree.select_congr_on _ _ _ _ fun j hj => ?_
    refine (congrFun (shapeCast_self (s := S2048x1024) (win0_1.fill i d1 g1) shapeCasts_S2048x1024_S2048x1024) j).trans
      (Eq.trans ?_ (congrFun (shapeCast_self (s := S2048x1024) (win0_1.fill i d1' g1) shapeCasts_S2048x1024_S2048x1024) j).symm)
    rw [show cmpi .slt (iota .tc S2048x1024 32 [0] iota_S2048x1024_d0_w32) (broadcast S2048x1024 1696#32) j
        = IntOp.cmpi .slt (iota .tc S2048x1024 32 [0] iota_S2048x1024_d0_w32 j) 1696#32 from rfl, iota_single_apply] at hj
    have hm : win0_1.moved i j = true := (win0_1.moved_iff i j).mpr fun a => by
      rw [hx1 a]
      match a with
      | ⟨0, _⟩ => exact (slt_1696 (j 0)).mp hj
      | ⟨1, _⟩ => exact (j 1).isLt
    unfold Window.fill; rw [dif_pos hm, dif_pos hm]
  unfold k0_pay3
  dsimp only
  rw [e0, e1]

end Cert.Kernel.Hand

end
-- ==== Proof.KernelFrame.lean ====
/-
  The body's obligation at every grid point, the run of @main and the frame.
-/
import proofs.«169486_g74792560493228_cont_9to1c4b_67_9_alg».proof.Proof.KernelMask

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: each window's current buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns: the operands' buffers stated on the part the fetch fills, the accumulator's whole. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) ((dats m 0 c).after 0 t))))
    ∗ (∃ d, owns (c : Thread nD τ) (ms1 t) fullShare (win0_1.fill (grid0.coords t) d (win0_1.cut (grid0.coords t) ((dats m 0 c).after 1 t))))
    ∗ owns (c : Thread nD τ) (ms2 t) fullShare ((dats m 0 c).after 2 t))

set_option maxHeartbeats 1600000 in
/-- The body at any point. The three closed forms say which case the point is in; the operands' buffers hold
    their blocks where the fetch filled them; after the first point the accumulator's buffer holds what the
    point before left. Before the last point the blocks fill the buffers; at the last point the step is
    the same whatever lies past the filled part. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  have hc0 : win0_0.cut (grid0.coords t) (xb0 m c t) = iblk m c 0 t := win0_0.cut_fill _ _ _
  have hc1 : win0_1.cut (grid0.coords t) (xb1 m c t) = iblk m c 1 t := win0_1.cut_fill _ _ _
  rw [hc0, hc1]
  have hN : t.val < 49 := lt_of_lt_of_eq t.isLt (show cfg0.N = 49 from N_0)
  by_cases h0 : t.val = 0
  · have h48 : t.val < 48 := by omega
    rw [acc_first m c t h0]
    simp only [before2_first m c t h0]
    unfold xb0 xb1
    iintro ⟨HΦ, Ho, ⟨%d0, H0⟩, ⟨%d1, H1⟩, ⟨%d2, H2⟩⟩
    rw [Pipeline.fill_of_clip_none (cfg := cfg0) 0 _ (clip0_none t h48) d0 (fun _ => Scalar.ofBits .f32 0#32),
      Pipeline.fill_of_clip_none (cfg := cfg0) 1 _ (clip1_none t h48) d1 (fun _ => Scalar.ofBits .f32 0#32)]
    iapply ((kernelRun0_A c (grid0.coords t) _ _ _ _ _ _ ((hcond1 t).mpr h0) ((hcond2 t).mpr h48)
      (fun h => by have := (hcond3 t).mp h; omega) _ _).2 Set.univ _)
    isplitl [H0]; · iexact H0
    isplitl [H1]; · iexact H1
    isplitl [H2]; · iexists _; iexact H2
    iintro ⟨H0, H1, ⟨%e, H2⟩⟩
    isplitl [HΦ]; · iexact HΦ
    isplitl [Ho]; · iexact Ho
    isplitl [H0]; · iexists _; iexact H0
    isplitl [H1]; · iexists _; iexact H1
    unfold owns; iexists _; isplitr
    swap; · iexact H2
    ipureintro
    exact (View.read_writes_of_cover _ _ VO2 VO2.junk _ (coverA c _ _ _ _ _ _ _ _ _ _ _ _)).trans
      (outA_eq c _ _ _ _ _ _ _ _ _ _ _ _)
  · by_cases h48 : t.val < 48
    · rw [acc_middle m c t h0 h48]
      simp only [before2_later m c t h0]
      unfold xb0 xb1
      iintro ⟨HΦ, Ho, ⟨%d0, H0⟩, ⟨%d1, H1⟩, ⟨%d2, H2⟩⟩
      rw [Pipeline.fill_of_clip_none (cfg := cfg0) 0 _ (clip0_none t h48) d0 (fun _ => Scalar.ofBits .f32 0#32),
        Pipeline.fill_of_clip_none (cfg := cfg0) 1 _ (clip1_none t h48) d1 (fun _ => Scalar.ofBits .f32 0#32)]
      iapply ((kernelRun0_B c (grid0.coords t) _ _ _ _ _ _ (fun h => h0 ((hcond1 t).mp h)) ((hcond2 t).mpr h48)
        (fun h => by have := (hcond3 t).mp h; omega) _ _ _).2 Set.univ _)
      isplitl [H0]; · iexact H0
      isplitl [H1]; · iexact H1
      isplitl [H2]; · iexact H2
      iintro ⟨H0, H1, ⟨%e, H2⟩⟩
      isplitl [HΦ]; · iexact HΦ
      isplitl [Ho]; · iexact Ho
      isplitl [H0]; · iexists _; iexact H0
      isplitl [H1]; · iexists _; iexact H1
      unfold owns; iexists _; isplitr
      swap; · iexact H2
      ipureintro
      exact (View.read_writes_of_cover _ _ VO2 VO2.junk _ (coverB c _ _ _ _ _ _ _ _ _ _ _ _ _)).trans
        (outB_eq c _ _ _ _ _ _ _ _ _ _ _ _ _)
    · rw [acc_last m c t h0 h48]
      simp only [before2_later m c t h0]
      unfold xb0 xb1
      iintro ⟨HΦ, Ho, ⟨%d0, H0⟩, ⟨%d1, H1⟩, ⟨%d2, H2⟩⟩
      iapply ((kernelRun0_C c (grid0.coords t) _ _ _ _ _ _ (fun h => h0 ((hcond1 t).mp h)) (fun h => h48 ((hcond2 t).mp h))
        ((hcond3 t).mpr (by omega)) _ _ _).2 Set.univ _)
      isplitl [H0]; · iexact H0
      isplitl [H1]; · iexact H1
      isplitl [H2]; · iexact H2
      iintro ⟨H0, H1, ⟨%e, H2⟩⟩
      isplitl [HΦ]; · iexact HΦ
      isplitl [Ho]; · iexact Ho
      isplitl [H0]; · iexists _; iexact H0
      isplitl [H1]; · iexists _; iexact H1
      unfold owns; iexists _; isplitr
      swap; · iexact H2
      ipureintro
      exact ((View.read_writes_of_cover _ _ VO2 VO2.junk _ (coverC c _ _ _ _ _ _ _ _ _ _ _ _ _)).trans
        (outC_eq c _ _ _ _ _ _ _ _ _ _ _ _ _)).trans
        (pay3_fill (grid0.coords t) (xsize0_last t h48) (xsize1_last t h48) d0 _ (iblk m c 0 t) d1 _ (iblk m c 1 t) _)

/-- The library's body obligation, at every point: no point is idle for the accumulator, and the operands'
    windows are stated on the part their transfers move. -/
theorem body_obligation (c : Dev nD) : BodyObligationLoose (dats (F := F) m 0 c) (defs₀ (F := F)) Variants.none () Set.univ := fun t => by
  rw [bigSep_W0, bigSep_W0]
  rw [hlive2 (cfg0.grid.coords t)]
  exact sound_body m c t

/-! ## The run and the frame -/

set_option backward.isDefEq.respectTransparency.types false in
/-- Every weakly fair execution of @main terminates, nothing faulting; every array of the pipeline ends at what
    the proof data computes, and every other unscoped buffer as the host line after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run ends with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KernelIdealShared.lean ====
/-
  The three control cases of the accumulation body, decided over the 49 grid points, and the names the
  per-case runs of the body share.

  The grid walks the contracted axis of length 100000 in 49 steps of 2048. Point 0 zeroes the
  accumulator and adds the first partial product; points 1..47 add a partial product; point 48 adds the
  partial product of the last, partial step, where only the first 1696 of the 2048 positions lie inside
  the arrays and both operands are replaced by zero past them.
-/
import proofs.«169486_g74792560493228_cont_9to1c4b_67_9_alg».proof.Proof.Gen.KernelIdeal.Frame
import proofs.«169486_g74792560493228_cont_9to1c4b_67_9_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The zeroing branch is taken at the first point only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- The full-step branch is taken at every point but the last. -/
theorem hcond2 : ∀ t : Fin cfg0.N, k0_cond2 (grid0.coords t) = 1#1 ↔ t.val < 48 :=
  (by decide +kernel : ∀ t : Fin grid0.N, k0_cond2 (grid0.coords t) = 1#1 ↔ t.val < 48)
/-- The partial-step branch is taken at the last point only. -/
theorem hcond3 : ∀ t : Fin cfg0.N, k0_cond3 (grid0.coords t) = 1#1 ↔ t.val = 48 :=
  (by decide +kernel : ∀ t : Fin grid0.N, k0_cond3 (grid0.coords t) = 1#1 ↔ t.val = 48)

/-- One staging buffer of the accumulator's window, through which its contents are stated (the choice does
    not matter where the stores cover the block). -/
abbrev VO2 : View sig .tc .vmem S32x1024 .f32 := (Memref.whole cc0_stg2_0 : Memref sig .tc .vmem S32x1024 .f32).view

/-- Each window's current staging memref at point `t`, and its wholeness. -/
abbrev ms0 (t : Fin cfg0.N) : Memref sig .tc .vmem S32x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x1024 .f32 := win0_2.stage (cfg0.slots t 2)
abbrev hs2 (t : Fin cfg0.N) : (ms2 t).IsWhole := hstage0_2 ((cfg0.slots t 2).cast nbuf0_2)

end Cert.KernelIdeal.Hand

end
-- ==== Proof.KernelIdealRunA.lean ====
/-
  The accumulation body run on whole staging buffers in control case A: the first point, where the accumulator is zeroed and the first partial product added.
-/
import proofs.«169486_g74792560493228_cont_9to1c4b_67_9_alg».proof.Proof.KernelIdealShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The stores the body makes into the accumulator's buffer in case A, last first, with the proof that on
    whole staging buffers — the operands' at contents `x0`, `x1`, the accumulator's at anything — the
    body runs to a continuation that is handed the operands' buffers as they were and the accumulator's with
    those stores made. -/
noncomputable def kernelRun0_A (c : Dev nD) (i : grid0.Coords) (arg1 : Memref sig .tc .vmem S32x2048 .f32) (harg1 : arg1.IsWhole)
    (arg2 : Memref sig .tc .vmem S2048x1024 .f32) (harg2 : arg2.IsWhole) (arg3 : Memref sig .tc .vmem S32x1024 .f32) (harg3 : arg3.IsWhole)
    (hc1 : k0_cond1 i = 1#1) (hc2 : k0_cond2 i = 1#1) (hc3 : ¬k0_cond3 i = 1#1)
    (x0 : Vec F S32x2048 .f32) (x1 : Vec F S2048x1024 .f32) :
    { L : List (View.Piece (Elt F) S32x1024 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__mm_kernel i arg1 harg1 arg2 harg2 arg3 harg3) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KernelIdealRunB.lean ====
/-
  The accumulation body run on whole staging buffers in control case B: a point after the first and before the last, where a full partial product is added to the running contents.
-/
import proofs.«169486_g74792560493228_cont_9to1c4b_67_9_alg».proof.Proof.KernelIdealRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The stores the body makes into the accumulator's buffer in case B, last first, with the proof that on
    whole staging buffers — the operands' at contents `x0`, `x1`, the accumulator's at its running contents `xo` — the
    body runs to a continuation that is handed the operands' buffers as they were and the accumulator's with
    those stores made. -/
noncomputable def kernelRun0_B (c : Dev nD) (i : grid0.Coords) (arg1 : Memref sig .tc .vmem S32x2048 .f32) (harg1 : arg1.IsWhole)
    (arg2 : Memref sig .tc .vmem S2048x1024 .f32) (harg2 : arg2.IsWhole) (arg3 : Memref sig .tc .vmem S32x1024 .f32) (harg3 : arg3.IsWhole)
    (hc1 : ¬k0_cond1 i = 1#1) (hc2 : k0_cond2 i = 1#1) (hc3 : ¬k0_cond3 i = 1#1)
    (x0 : Vec F S32x2048 .f32) (x1 : Vec F S2048x1024 .f32) (xo : Vec F S32x1024 .f32) :
    { L : List (View.Piece (Elt F) S32x1024 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__mm_kernel i arg1 harg1 arg2 harg2 arg3 harg3) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KernelIdealRunC.lean ====
/-
  The accumulation body run on whole staging buffers in control case C: the last point, where the partial product of the operands zeroed past position 1696 is added to the running contents.
-/
import proofs.«169486_g74792560493228_cont_9to1c4b_67_9_alg».proof.Proof.KernelIdealRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The stores the body makes into the accumulator's buffer in case C, last first, with the proof that on
    whole staging buffers — the operands' at contents `x0`, `x1`, the accumulator's at its running contents `xo` — the
    body runs to a continuation that is handed the operands' buffers as they were and the accumulator's with
    those stores made. -/
noncomputable def kernelRun0_C (c : Dev nD) (i : grid0.Coords) (arg1 : Memref sig .tc .vmem S32x2048 .f32) (harg1 : arg1.IsWhole)
    (arg2 : Memref sig .tc .vmem S2048x1024 .f32) (harg2 : arg2.IsWhole) (arg3 : Memref sig .tc .vmem S32x1024 .f32) (harg3 : arg3.IsWhole)
    (hc1 : ¬k0_cond1 i = 1#1) (hc2 : ¬k0_cond2 i = 1#1) (hc3 : k0_cond3 i = 1#1)
    (x0 : Vec F S32x2048 .f32) (x1 : Vec F S2048x1024 .f32) (xo : Vec F S32x1024 .f32) :
    { L : List (View.Piece (Elt F) S32x1024 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__mm_kernel i arg1 harg1 arg2 harg2 arg3 harg3) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KernelIdealPieces.lean ====
/-
  What each control case leaves in the accumulator's buffer, as the body's own arithmetic: the stores found by
  the runs, read back, are the zeroing followed by one accumulation step (first point), one accumulation step
  (middle points), or the masked accumulation step (last point). And the masked step does not depend on what
  the operands' buffers hold past position 1696 of the contracted axis: the comparison of the position against
  1696 selects the zero word there, whatever the buffer holds.
-/
import proofs.«169486_g74792560493228_cont_9to1c4b_67_9_alg».proof.Proof.KernelIdealRunC
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- First point: the zeroing store, then the step over the zeros just stored. -/
theorem outA_eq (c : Dev nD) (i : grid0.Coords) (arg1 : Memref sig .tc .vmem S32x2048 .f32) (harg1 : arg1.IsWhole)
    (arg2 : Memref sig .tc .vmem S2048x1024 .f32) (harg2 : arg2.IsWhole) (arg3 : Memref sig .tc .vmem S32x1024 .f32) (harg3 : arg3.IsWhole)
    (hc1 : k0_cond1 i = 1#1) (hc2 : k0_cond2 i = 1#1) (hc3 : ¬k0_cond3 i = 1#1)
    (x0 : Vec F S32x2048 .f32) (x1 : Vec F S2048x1024 .f32) :
    VO2.read (Elt F) (VO2.writes (Elt F) VO2.junk (kernelRun0_A c i arg1 harg1 arg2 harg2 arg3 harg3 hc1 hc2 hc3 x0 x1).1)
      = k0_pay2 (k0_pay1 (F := F)) x0 x1 := by
  rw [View.read_writes_junk_eq_canon]
  unfold kernelRun0_A; dsimp only
  rw [View.canon_cons_unit_zero hz2]
  sl_unfold_words
  rw [View.readCov_unit_zero _ hz2]
  simp only [View.readAt_eq_ld, harg1.read_unread, harg2.read_unread,
    View.ld_unit_zero (S := S32x2048) hz2, View.ld_unit_zero (S := S2048x1024) hz2]

/-- A middle point: one step over the running contents. -/
theorem outB_eq (c : Dev nD) (i : grid0.Coords) (arg1 : Memref sig .tc .vmem S32x2048 .f32) (harg1 : arg1.IsWhole)
    (arg2 : Memref sig .tc .vmem S2048x1024 .f32) (harg2 : arg2.IsWhole) (arg3 : Memref sig .tc .vmem S32x1024 .f32) (harg3 : arg3.IsWhole)
    (hc1 : ¬k0_cond1 i = 1#1) (hc2 : k0_cond2 i = 1#1) (hc3 : ¬k0_cond3 i = 1#1)
    (x0 : Vec F S32x2048 .f32) (x1 : Vec F S2048x1024 .f32) (xo : Vec F S32x1024 .f32) :
    VO2.read (Elt F) (VO2.writes (Elt F) VO2.junk (kernelRun0_B c i arg1 harg1 arg2 harg2 arg3 harg3 hc1 hc2 hc3 x0 x1 xo).1)
      = k0_pay2 xo x0 x1 := by
  rw [View.read_writes_junk_eq_canon]
  unfold kernelRun0_B; dsimp only
  rw [View.canon_unit_zero hz2]
  simp only [View.readAt_eq_ld, harg1.read_unread, harg2.read_unread, harg3.read_unread,
    View.ld_unit_zero (S := S32x2048) hz2, View.ld_unit_zero (S := S2048x1024) hz2, View.ld_unit_zero (S := S32x1024) hz2]

/-- The last point: the masked step over the running contents. -/
theorem outC_eq (c : Dev nD) (i : grid0.Coords) (arg1 : Memref sig .tc .vmem S32x2048 .f32) (harg1 : arg1.IsWhole)
    (arg2 : Memref sig .tc .vmem S2048x1024 .f32) (harg2 : arg2.IsWhole) (arg3 : Memref sig .tc .vmem S32x1024 .f32) (harg3 : arg3.IsWhole)
    (hc1 : ¬k0_cond1 i = 1#1) (hc2 : ¬k0_cond2 i = 1#1) (hc3 : k0_cond3 i = 1#1)
    (x0 : Vec F S32x2048 .f32) (x1 : Vec F S2048x1024 .f32) (xo : Vec F S32x1024 .f32) :
    VO2.read (Elt F) (VO2.writes (Elt F) VO2.junk (kernelRun0_C c i arg1 harg1 arg2 harg2 arg3 harg3 hc1 hc2 hc3 x0 x1 xo).1)
      = k0_pay3 x0 x1 xo := by
  rw [View.read_writes_junk_eq_canon]
  unfold kernelRun0_C; dsimp only
  rw [View.canon_unit_zero hz2]
  simp only [View.readAt_eq_ld, harg1.read_unread, harg2.read_unread, harg3.read_unread,
    View.ld_unit_zero (S := S32x2048) hz2, View.ld_unit_zero (S := S2048x1024) hz2, View.ld_unit_zero (S := S32x1024) hz2]

/-- In each case the stores cover the accumulator's block (the last one is whole). -/
theorem coverA (c : Dev nD) (i : grid0.Coords) (arg1 : Memref sig .tc .vmem S32x2048 .f32) (harg1 : arg1.IsWhole)
    (arg2 : Memref sig .tc .vmem S2048x1024 .f32) (harg2 : arg2.IsWhole) (arg3 : Memref sig .tc .vmem S32x1024 .f32) (harg3 : arg3.IsWhole)
    (hc1 : k0_cond1 i = 1#1) (hc2 : k0_cond2 i = 1#1) (hc3 : ¬k0_cond3 i = 1#1)
    (x0 : Vec F S32x2048 .f32) (x1 : Vec F S2048x1024 .f32) (y : S32x1024.Idx) :
    ∃ pc ∈ (kernelRun0_A c i arg1 harg1 arg2 harg2 arg3 harg3 hc1 hc2 hc3 x0 x1).1, y ∈ pc.1.set :=
by
  unfold kernelRun0_A; dsimp only
  exact ⟨_, List.mem_cons_self, View.mem_set_unit_zero hz2 inb_S32x1024_S32x1024_0_0 y⟩
theorem coverB (c : Dev nD) (i : grid0.Coords) (arg1 : Memref sig .tc .vmem S32x2048 .f32) (harg1 : arg1.IsWhole)
    (arg2 : Memref sig .tc .vmem S2048x1024 .f32) (harg2 : arg2.IsWhole) (arg3 : Memref sig .tc .vmem S32x1024 .f32) (harg3 : arg3.IsWhole)
    (hc1 : ¬k0_cond1 i = 1#1) (hc2 : k0_cond2 i = 1#1) (hc3 : ¬k0_cond3 i = 1#1)
    (x0 : Vec F S32x2048 .f32) (x1 : Vec F S2048x1024 .f32) (xo : Vec F S32x1024 .f32) (y : S32x1024.Idx) :
    ∃ pc ∈ (kernelRun0_B c i arg1 harg1 arg2 harg2 arg3 harg3 hc1 hc2 hc3 x0 x1 xo).1, y ∈ pc.1.set :=
by
  unfold kernelRun0_B; dsimp only
  exact ⟨_, List.mem_cons_self, View.mem_set_unit_zero hz2 inb_S32x1024_S32x1024_0_0 y⟩
theorem coverC (c : Dev nD) (i : grid0.Coords) (arg1 : Memref sig .tc .vmem S32x2048 .f32) (harg1 : arg1.IsWhole)
    (arg2 : Memref sig .tc .vmem S2048x1024 .f32) (harg2 : arg2.IsWhole) (arg3 : Memref sig .tc .vmem S32x1024 .f32) (harg3 : arg3.IsWhole)
    (hc1 : ¬k0_cond1 i = 1#1) (hc2 : ¬k0_cond2 i = 1#1) (hc3 : k0_cond3 i = 1#1)
    (x0 : Vec F S32x2048 .f32) (x1 : Vec F S2048x1024 .f32) (xo : Vec F S32x1024 .f32) (y : S32x1024.Idx) :
    ∃ pc ∈ (kernelRun0_C c i arg1 harg1 arg2 harg2 arg3 harg3 hc1 hc2 hc3 x0 x1 xo).1, y ∈ pc.1.set :=
by
  unfold kernelRun0_C; dsimp only
  exact ⟨_, List.mem_cons_self, View.mem_set_unit_zero hz2 inb_S32x1024_S32x1024_0_0 y⟩

/-- A position below 2048 compares (signed, as 32-bit words) below 1696 exactly when it is. -/
theorem slt_1696 : ∀ n : Fin 2048, IntOp.cmpi .slt (BitVec.ofNat 32 n.val) 1696#32 = 1#1 ↔ n.val < 1696 := by
  decide +kernel

end Cert.KernelIdeal.Hand

end
-- ==== Proof.KernelIdealData.lean ====
/-
  The proof data of the accumulation over the 49 grid points, the body's obligation at every point, the run of
  @main and the frame.

  After point t the accumulator's buffer holds the zero block plus the partial products of steps 0..t, the last
  one (t = 48) over operands zeroed past position 1696. The operands' buffers hold their blocks on the part
  inside the arrays and anything past it; nothing the body leaves in the accumulator depends on that remainder:
  before the last point the blocks lie inside the arrays, and at the last point the remainder is masked.
-/
import proofs.«169486_g74792560493228_cont_9to1c4b_67_9_alg».proof.Proof.KernelIdealPieces
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operands' blocks, filled out with the zero word past the arrays' end -/

def xb0 (c : Dev nD) (t : Fin cfg0.N) : Vec F S32x2048 .f32 :=
  win0_0.fill (grid0.coords t) (fun _ => Scalar.ofBits .f32 0#32) (iblk m c 0 t)
def xb1 (c : Dev nD) (t : Fin cfg0.N) : Vec F S2048x1024 .f32 :=
  win0_1.fill (grid0.coords t) (fun _ => Scalar.ofBits .f32 0#32) (iblk m c 1 t)

/-! ## The accumulation -/

/-- What the accumulator's buffer holds after the body at point `n`. -/
def acc (c : Dev nD) : (n : ℕ) → n < cfg0.N → Vec F S32x1024 .f32
  | 0, hn => k0_pay2 (k0_pay1 (F := F)) (xb0 m c ⟨0, hn⟩) (xb1 m c ⟨0, hn⟩)
  | n + 1, hn =>
    if n + 1 < 48 then k0_pay2 (acc c n (Nat.lt_of_succ_lt hn)) (xb0 m c ⟨n + 1, hn⟩) (xb1 m c ⟨n + 1, hn⟩)
    else k0_pay3 (xb0 m c ⟨n + 1, hn⟩) (xb1 m c ⟨n + 1, hn⟩) (acc c n (Nat.lt_of_succ_lt hn))

theorem acc_first (c : Dev nD) (t : Fin cfg0.N) (h : t.val = 0) :
    acc m c t.val t.isLt = k0_pay2 (k0_pay1 (F := F)) (xb0 m c t) (xb1 m c t) := by
  obtain ⟨n, hn⟩ := t
  cases n with
  | zero => rfl
  | succ n => exact absurd h (Nat.succ_ne_zero _)

theorem acc_middle (c : Dev nD) (t : Fin cfg0.N) (h0 : t.val ≠ 0) (h : t.val < 48) :
    acc m c t.val t.isLt = k0_pay2 (acc m c (t.val - 1) (Nat.lt_of_le_of_lt (Nat.sub_le _ _) t.isLt)) (xb0 m c t) (xb1 m c t) := by
  obtain ⟨n, hn⟩ := t
  cases n with
  | zero => exact absurd rfl h0
  | succ n => exact (if_pos h).trans rfl

theorem acc_last (c : Dev nD) (t : Fin cfg0.N) (h0 : t.val ≠ 0) (h : ¬t.val < 48) :
    acc m c t.val t.isLt = k0_pay3 (xb0 m c t) (xb1 m c t) (acc m c (t.val - 1) (Nat.lt_of_le_of_lt (Nat.sub_le _ _) t.isLt)) := by
  obtain ⟨n, hn⟩ := t
  cases n with
  | zero => exact absurd rfl h0
  | succ n => exact (if_neg h).trans rfl

/-! ## The proof data -/

/-- The arrays as the region finds them; after the body at point `t` the operands' buffers at their blocks
    (filled out with zeros) and the accumulator's at `acc`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xb0 m c t
    | ⟨1, _⟩ => xb1 m c t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = xb0 m c t := by dsimp only [dats]
theorem after1 (c : Dev nD) (t : Fin cfg0.N) : (dats m 0 c).after 1 t = xb1 m c t := by dsimp only [dats]
theorem after2 (c : Dev nD) (t : Fin cfg0.N) : (dats m 0 c).after 2 t = acc m c t.val t.isLt := by dsimp only [dats]

/-- The operands are fetched at every point: their buffers hold the block where the fetch filled them. -/
theorem before0 (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk; rw [A_eq]
theorem before1 (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk; rw [A_eq]

/-- No point is idle for the accumulator: at each, one of the three branches stores into it. -/
theorem hlive2 (i : grid0.Coords) : cfg0.idle 2 i = false := by
  have h : ∀ n : Fin 49,
      (!(Scalar.cmpi .ne (Scalar.extui (Scalar.cmpi .eq (BitVec.ofNat 32 n.val) 0#32)) 0#32 == 1#1)
        && !(Scalar.cmpi .ne (Scalar.extui (Scalar.cmpi .slt (BitVec.ofNat 32 n.val) 48#32)) 0#32 == 1#1)
        && !(Scalar.cmpi .ne (Scalar.extui (Scalar.cmpi .eq (BitVec.ofNat 32 n.val) 48#32)) 0#32 == 1#1)) = false := by
    decide +kernel
  exact h (i 0)

/-- At the first point the accumulator's buffer holds anything; -/
theorem before2_first (c : Dev nD) (t : Fin cfg0.N) (h0 : t.val = 0) (d) : (dats m 0 c).before 2 t d = d :=
  Dat.before_out_reset _ 2 rfl t (.inl h0) d
/-- at a later one what the body left at the point before: it is written back at the last point only. -/
theorem before2_later (c : Dev nD) (t : Fin cfg0.N) (h0 : t.val ≠ 0) (d) :
    (dats m 0 c).before 2 t d = acc m c (t.val - 1) (Nat.lt_of_le_of_lt (Nat.sub_le _ _) t.isLt) := by
  have hN : t.val < 49 := lt_of_lt_of_eq t.isLt (show cfg0.N = 49 from N_0)
  rw [Dat.before_out_kept _ 2 rfl t h0 (Bool.eq_false_iff.mpr fun h => by have := (flush0_2 _).mp h; dsimp only at this; omega)
    hlive2 (fun _ _ => rfl)]
  dsimp only [dats]

/-- Before the last point the operands' blocks lie inside the arrays: the fetch fills the whole buffer. -/
theorem clip0_none : ∀ t : Fin cfg0.N, t.val < 48 → ∀ a, (cfg0.win 0).clip (cfg0.grid.coords t) a = none :=
  (by decide +kernel : ∀ t : Fin grid0.N, t.val < 48 → ∀ a, win0_0.clip (grid0.coords t) a = none)
theorem clip1_none : ∀ t : Fin cfg0.N, t.val < 48 → ∀ a, (cfg0.win 1).clip (cfg0.grid.coords t) a = none :=
  (by decide +kernel : ∀ t : Fin grid0.N, t.val < 48 → ∀ a, win0_1.clip (grid0.coords t) a = none)
/-- At the last point the fetch fills positions 0..1695 of the contracted axis. -/
theorem xsize0_last : ∀ t : Fin cfg0.N, ¬t.val < 48 → ∀ a, win0_0.xsize (grid0.coords t) a = (![32, 1696] : Fin 2 → ℕ) a :=
  (by decide +kernel : ∀ t : Fin grid0.N, ¬t.val < 48 → ∀ a, win0_0.xsize (grid0.coords t) a = (![32, 1696] : Fin 2 → ℕ) a)
theorem xsize1_last : ∀ t : Fin cfg0.N, ¬t.val < 48 → ∀ a, win0_1.xsize (grid0.coords t) a = (![1696, 1024] : Fin 2 → ℕ) a :=
  (by decide +kernel : ∀ t : Fin grid0.N, ¬t.val < 48 → ∀ a, win0_1.xsize (grid0.coords t) a = (![1696, 1024] : Fin 2 → ℕ) a)

end Cert.KernelIdeal.Hand

end
-- ==== Proof.KernelIdealMask.lean ====
/-
  The masked accumulation step of the last grid point depends on the operands' buffers only through the part
  the fetch filled: positions 0..1695 of the contracted axis. Past it both operands are replaced by the zero
  word before they are multiplied, so two buffers that agree on the filled part give the same step.
-/
import proofs.«169486_g74792560493228_cont_9to1c4b_67_9_alg».proof.Proof.KernelIdealData
import proofs.«169486_g74792560493228_cont_9to1c4b_67_9_alg».proof.Proof.LibSelectAgree

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The masked step reads the operands' buffers only where the fetch filled them -/

theorem pay3_fill (i : grid0.Coords)
    (hx0 : ∀ a, win0_0.xsize i a = (![32, 1696] : Fin 2 → ℕ) a) (hx1 : ∀ a, win0_1.xsize i a = (![1696, 1024] : Fin 2 → ℕ) a)
    (d0 d0' : S32x2048.Idx → Elt F .f32) (g0 : (win0_0.xblock i).Idx → Elt F .f32)
    (d1 d1' : S2048x1024.Idx → Elt F .f32) (g1 : (win0_1.xblock i).Idx → Elt F .f32) (xo : Vec F S32x1024 .f32) :
    k0_pay3 (win0_0.fill i d0 g0) (win0_1.fill i d1 g1) xo = k0_pay3 (win0_0.fill i d0' g0) (win0_1.fill i d1' g1) xo := by
  have e0 : select (cmpi .slt (iota .tc S32x2048 32 [1] iota_S32x2048_d1_w32) (broadcast S32x2048 1696#32))
        (shapeCast S32x2048 (win0_0.fill i d0 g0) shapeCasts_S32x2048_S32x2048) (broadcast S32x2048 (Scalar.ofBits .f32 0x00000000#32 : F .f32))
      = select (cmpi .slt (iota .tc S32x2048 32 [1] iota_S32x2048_d1_w32) (broadcast S32x2048 1696#32))
        (shapeCast S32x2048 (win0_0.fill i d0' g0) shapeCasts_S32x2048_S32x2048) (broadcast S32x2048 (Scalar.ofBits .f32 0x00000000#32 : F .f32)) := by
    refine Cert.LibSelectAgree.select_congr_on _ _ _ _ fun j hj => ?_
    refine (congrFun (shapeCast_self (s := S32x2048) (win0_0.fill i d0 g0) shapeCasts_S32x2048_S32x2048) j).trans
      (Eq.trans ?_ (congrFun (shapeCast_self (s := S32x2048) (win0_0.fill i d0' g0) shapeCasts_S32x2048_S32x2048) j).symm)
    rw [show cmpi .slt (iota .tc S32x2048 32 [1] iota_S32x2048_d1_w32) (broadcast S32x2048 1696#32) j
        = IntOp.cmpi .slt (iota .tc S32x2048 32 [1] iota_S32x2048_d1_w32 j) 1696#32 from rfl, iota_single_apply] at hj
    have hm : win0_0.moved i j = true := (win0_0.moved_iff i j).mpr fun a => by
      rw [hx0 a]
      match a with
      | ⟨0, _⟩ => exact (j 0).isLt
      | ⟨1, _⟩ => exact (slt_1696 (j 1)).mp hj
    unfold Window.fill; rw [dif_pos hm, dif_pos hm]
  have e1 : select (cmpi .slt (iota .tc S2048x1024 32 [0] iota_S2048x1024_d0_w32) (broadcast S2048x1024 1696#32))
        (shapeCast S2048x1024 (win0_1.fill i d1 g1) shapeCasts_S2048x1024_S2048x1024) (broadcast S2048x1024 (Scalar.ofBits .f32 0x00000000#32 : F .f32))
      = select (cmpi .slt (iota .tc S2048x1024 32 [0] iota_S2048x1024_d0_w32) (broadcast S2048x1024 1696#32))
        (shapeCast S2048x1024 (win0_1.fill i d1' g1) shapeCasts_S2048x1024_S2048x1024) (broadcast S2048x1024 (Scalar.ofBits .f32 0x00000000#32 : F .f32)) := by
    refine Cert.LibSelectAgree.select_congr_on _ _ _ _ fun j hj => ?_
    refine (congrFun (shapeCast_self (s := S2048x1024) (win0_1.fill i d1 g1) shapeCasts_S2048x1024_S2048x1024) j).trans
      (Eq.trans ?_ (congrFun (shapeCast_self (s := S2048x1024) (win0_1.fill i d1' g1) shapeCasts_S2048x1024_S2048x1024) j).symm)
    rw [show cmpi .slt (iota .tc S2048x1024 32 [0] iota_S2048x1024_d0_w32) (broadcast S2048x1024 1696#32) j
        = IntOp.cmpi .slt (iota .tc S2048x1024 32 [0] iota_S2048x1024_d0_w32 j) 1696#32 from rfl, iota_single_apply] at hj
    have hm : win0_1.moved i j = true := (win0_1.moved_iff i j).mpr fun a => by
      rw [hx1 a]
      match a with
      | ⟨0, _⟩ => exact (slt_1696 (j 0)).mp hj
      | ⟨1, _⟩ => exact (j 1).isLt
    unfold Window.fill; rw [dif_pos hm, dif_pos hm]
  unfold k0_pay3
  dsimp only
  rw [e0, e1]

end Cert.KernelIdeal.Hand

end
-- ==== Proof.KernelIdealFrame.lean ====
/-
  The body's obligation at every grid point, the run of @main and the frame.
-/
import proofs.«169486_g74792560493228_cont_9to1c4b_67_9_alg».proof.Proof.KernelIdealMask

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: each window's current buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns: the operands' buffers stated on the part the fetch fills, the accumulator's whole. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) ((dats m 0 c).after 0 t))))
    ∗ (∃ d, owns (c : Thread nD τ) (ms1 t) fullShare (win0_1.fill (grid0.coords t) d (win0_1.cut (grid0.coords t) ((dats m 0 c).after 1 t))))
    ∗ owns (c : Thread nD τ) (ms2 t) fullShare ((dats m 0 c).after 2 t))

set_option maxHeartbeats 1600000 in
/-- The body at any point. The three closed forms say which case the point is in; the operands' buffers hold
    their blocks where the fetch filled them; after the first point the accumulator's buffer holds what the
    point before left. Before the last point the blocks fill the buffers; at the last point the step is
    the same whatever lies past the filled part. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  have hc0 : win0_0.cut (grid0.coords t) (xb0 m c t) = iblk m c 0 t := win0_0.cut_fill _ _ _
  have hc1 : win0_1.cut (grid0.coords t) (xb1 m c t) = iblk m c 1 t := win0_1.cut_fill _ _ _
  rw [hc0, hc1]
  have hN : t.val < 49 := lt_of_lt_of_eq t.isLt (show cfg0.N = 49 from N_0)
  by_cases h0 : t.val = 0
  · have h48 : t.val < 48 := by omega
    rw [acc_first m c t h0]
    simp only [before2_first m c t h0]
    unfold xb0 xb1
    iintro ⟨HΦ, Ho, ⟨%d0, H0⟩, ⟨%d1, H1⟩, ⟨%d2, H2⟩⟩
    rw [Pipeline.fill_of_clip_none (cfg := cfg0) 0 _ (clip0_none t h48) d0 (fun _ => Scalar.ofBits .f32 0#32),
      Pipeline.fill_of_clip_none (cfg := cfg0) 1 _ (clip1_none t h48) d1 (fun _ => Scalar.ofBits .f32 0#32)]
    iapply ((kernelRun0_A c (grid0.coords t) _ _ _ _ _ _ ((hcond1 t).mpr h0) ((hcond2 t).mpr h48)
      (fun h => by have := (hcond3 t).mp h; omega) _ _).2 Set.univ _)
    isplitl [H0]; · iexact H0
    isplitl [H1]; · iexact H1
    isplitl [H2]; · iexists _; iexact H2
    iintro ⟨H0, H1, ⟨%e, H2⟩⟩
    isplitl [HΦ]; · iexact HΦ
    isplitl [Ho]; · iexact Ho
    isplitl [H0]; · iexists _; iexact H0
    isplitl [H1]; · iexists _; iexact H1
    unfold owns; iexists _; isplitr
    swap; · iexact H2
    ipureintro
    exact (View.read_writes_of_cover _ _ VO2 VO2.junk _ (coverA c _ _ _ _ _ _ _ _ _ _ _ _)).trans
      (outA_eq c _ _ _ _ _ _ _ _ _ _ _ _)
  · by_cases h48 : t.val < 48
    · rw [acc_middle m c t h0 h48]
      simp only [before2_later m c t h0]
      unfold xb0 xb1
      iintro ⟨HΦ, Ho, ⟨%d0, H0⟩, ⟨%d1, H1⟩, ⟨%d2, H2⟩⟩
      rw [Pipeline.fill_of_clip_none (cfg := cfg0) 0 _ (clip0_none t h48) d0 (fun _ => Scalar.ofBits .f32 0#32),
        Pipeline.fill_of_clip_none (cfg := cfg0) 1 _ (clip1_none t h48) d1 (fun _ => Scalar.ofBits .f32 0#32)]
      iapply ((kernelRun0_B c (grid0.coords t) _ _ _ _ _ _ (fun h => h0 ((hcond1 t).mp h)) ((hcond2 t).mpr h48)
        (fun h => by have := (hcond3 t).mp h; omega) _ _ _).2 Set.univ _)
      isplitl [H0]; · iexact H0
      isplitl [H1]; · iexact H1
      isplitl [H2]; · iexact H2
      iintro ⟨H0, H1, ⟨%e, H2⟩⟩
      isplitl [HΦ]; · iexact HΦ
      isplitl [Ho]; · iexact Ho
      isplitl [H0]; · iexists _; iexact H0
      isplitl [H1]; · iexists _; iexact H1
      unfold owns; iexists _; isplitr
      swap; · iexact H2
      ipureintro
      exact (View.read_writes_of_cover _ _ VO2 VO2.junk _ (coverB c _ _ _ _ _ _ _ _ _ _ _ _ _)).trans
        (outB_eq c _ _ _ _ _ _ _ _ _ _ _ _ _)
    · rw [acc_last m c t h0 h48]
      simp only [before2_later m c t h0]
      unfold xb0 xb1
      iintro ⟨HΦ, Ho, ⟨%d0, H0⟩, ⟨%d1, H1⟩, ⟨%d2, H2⟩⟩
      iapply ((kernelRun0_C c (grid0.coords t) _ _ _ _ _ _ (fun h => h0 ((hcond1 t).mp h)) (fun h => h48 ((hcond2 t).mp h))
        ((hcond3 t).mpr (by omega)) _ _ _).2 Set.univ _)
      isplitl [H0]; · iexact H0
      isplitl [H1]; · iexact H1
      isplitl [H2]; · iexact H2
      iintro ⟨H0, H1, ⟨%e, H2⟩⟩
      isplitl [HΦ]; · iexact HΦ
      isplitl [Ho]; · iexact Ho
      isplitl [H0]; · iexists _; iexact H0
      isplitl [H1]; · iexists _; iexact H1
      unfold owns; iexists _; isplitr
      swap; · iexact H2
      ipureintro
      exact ((View.read_writes_of_cover _ _ VO2 VO2.junk _ (coverC c _ _ _ _ _ _ _ _ _ _ _ _ _)).trans
        (outC_eq c _ _ _ _ _ _ _ _ _ _ _ _ _)).trans
        (pay3_fill (grid0.coords t) (xsize0_last t h48) (xsize1_last t h48) d0 _ (iblk m c 0 t) d1 _ (iblk m c 1 t) _)

/-- The library's body obligation, at every point: no point is idle for the accumulator, and the operands'
    windows are stated on the part their transfers move. -/
theorem body_obligation (c : Dev nD) : BodyObligationLoose (dats (F := F) m 0 c) (defs₀ (F := F)) Variants.none () Set.univ := fun t => by
  rw [bigSep_W0, bigSep_W0]
  rw [hlive2 (cfg0.grid.coords t)]
  exact sound_body m c t

/-! ## The run and the frame -/

set_option backward.isDefEq.respectTransparency.types false in
/-- Every weakly fair execution of @main terminates, nothing faulting; every array of the pipeline ends at what
    the proof data computes, and every other unscoped buffer as the host line after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run ends with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.StepValue.lean ====
/-
  The body's three arithmetic forms read at one entry (o, p) of the [32, 1024] accumulator, on the extended reals:
  the zero block; one accumulation step, the running entry plus the sum over the 2048 positions j of the step of
  left(o, j) · right(j, p); and the masked step of the last grid point, where both factors are replaced by zero
  from position 1696 on.
-/
import proofs.«169486_g74792560493228_cont_9to1c4b_67_9_alg».proof.Proof.KernelIdealPieces
import proofs.«169486_g74792560493228_cont_9to1c4b_67_9_alg».proof.Proof.LibPlainDot
import Idealize.ShloMosaic.PureOps.Ideal.Laws
import Idealize.ShloMosaic.Lib.ValueIdx
import Idealize.ShloMosaic.Lib.Pipeline.Value

set_option maxRecDepth 16384

noncomputable section

namespace Cert.KernelIdeal.StepValue

open Cert.KernelIdeal Cert.KernelIdeal.Gen Cert.KernelIdeal.Hand
open Idealize.ShloMosaic Idealize.ShloMosaic.ValueIdx
open scoped BigOperators

/-- The zero block. -/
theorem zero_apply (i : S32x1024.Idx) : k0_pay1 (F := Ideal) i = 0 := by
  unfold k0_pay1
  exact Ideal.ofBits_zero_f32

/-- One accumulation step. -/
theorem step_apply (xo : Vec Ideal S32x1024 .f32) (x0 : Vec Ideal S32x2048 .f32) (x1 : Vec Ideal S2048x1024 .f32)
    (o : Fin 32) (p : Fin 1024) :
    k0_pay2 xo x0 x1 (ix2 o p) = xo (ix2 o p) + ∑ j : Fin 2048, x0 (ix2 o j) * x1 (ix2 j p) := by
  unfold k0_pay2
  rw [ValueIdx.addf_apply, shapeCast_self, shapeCast_self, shapeCast_self]
  exact congrArg (xo (ix2 o p) + ·)
    (Cert.LibPlainDot.matmul_zero_apply dot_S32x2048_S2048x1024_S32x1024_1_0_0_1_n_n rfl rfl rfl rfl rfl rfl none x0 x1 o p)

/-- The mask of the last step at a position of the contracted axis. -/
theorem mask0_apply (o : Fin 32) (j : Fin 2048) :
    cmpi .slt (iota .tc S32x2048 32 [1] iota_S32x2048_d1_w32) (broadcast S32x2048 1696#32) (ix2 o j) = (1 : BitVec 1) ↔ j.val < 1696 := by
  show _ = 1#1 ↔ _
  rw [show cmpi .slt (iota .tc S32x2048 32 [1] iota_S32x2048_d1_w32) (broadcast S32x2048 1696#32) (ix2 o j)
      = IntOp.cmpi .slt (iota .tc S32x2048 32 [1] iota_S32x2048_d1_w32 (ix2 o j)) 1696#32 from rfl, iota_single_apply]
  exact slt_1696 j
theorem mask1_apply (j : Fin 2048) (p : Fin 1024) :
    cmpi .slt (iota .tc S2048x1024 32 [0] iota_S2048x1024_d0_w32) (broadcast S2048x1024 1696#32) (ix2 j p) = (1 : BitVec 1) ↔ j.val < 1696 := by
  show _ = 1#1 ↔ _
  rw [show cmpi .slt (iota .tc S2048x1024 32 [0] iota_S2048x1024_d0_w32) (broadcast S2048x1024 1696#32) (ix2 j p)
      = IntOp.cmpi .slt (iota .tc S2048x1024 32 [0] iota_S2048x1024_d0_w32 (ix2 j p)) 1696#32 from rfl, iota_single_apply]
  exact slt_1696 j

/-- The masked step of the last grid point. -/
theorem last_apply (x0 : Vec Ideal S32x2048 .f32) (x1 : Vec Ideal S2048x1024 .f32) (xo : Vec Ideal S32x1024 .f32)
    (o : Fin 32) (p : Fin 1024) :
    k0_pay3 x0 x1 xo (ix2 o p)
      = xo (ix2 o p) + ∑ j : Fin 2048, (if j.val < 1696 then x0 (ix2 o j) else 0) * (if j.val < 1696 then x1 (ix2 j p) else 0) := by
  unfold k0_pay3
  dsimp only
  rw [ValueIdx.addf_apply, shapeCast_self, shapeCast_self, shapeCast_self]
  refine congrArg (xo (ix2 o p) + ·) ?_
  refine (Cert.LibPlainDot.matmul_zero_apply dot_S32x2048_S2048x1024_S32x1024_1_0_0_1_n_n rfl rfl rfl rfl rfl rfl none _ _ o p).trans ?_
  refine Finset.sum_congr rfl fun j _ => ?_
  rw [ValueIdx.select_apply, ValueIdx.select_apply]
  unfold Scalar.select
  by_cases hj : j.val < 1696
  · rw [if_pos ((mask0_apply o j).mpr hj), if_pos ((mask1_apply j p).mpr hj), if_pos hj, if_pos hj]
  · rw [if_neg (fun h => hj ((mask0_apply o j).mp h)), if_neg (fun h => hj ((mask1_apply j p).mp h)), if_neg hj, if_neg hj]
    show Ideal.ofBits .f32 0x00000000#32 * Ideal.ofBits .f32 0x00000000#32 = 0 * 0
    rw [Ideal.ofBits_zero_f32]

end Cert.KernelIdeal.StepValue

end
-- ==== Proof.LibNatRead.lean ====
/-
  A matrix read at a pair of natural numbers.

  When a large matrix is cut into blocks, the row and column of an entry of a block are sums "block offset + position
  inside the block".  Reading the matrix at natural numbers, each reduced modulo its extent, makes such a reading a
  total function of the two numbers: positions can then be compared by arithmetic alone, with no bound carried inside
  the term.  At numbers below the extents the reading is the matrix entry itself.
-/
import Idealize.ShloMosaic.Lib.ValueIdx

noncomputable section

namespace Cert.LibNatRead

open Idealize.ShloMosaic Idealize.ShloMosaic.ValueIdx

variable {α : Type}

/-- The entry of an [a, b] matrix at row r mod a and column l mod b. -/
def rd2 {a b : ℕ} (ha : 0 < a) (hb : 0 < b) (X : (⟨2, ![a, b]⟩ : Shape).Idx → α) (r l : ℕ) : α :=
  X (ix2 (⟨r % a, Nat.mod_lt _ ha⟩ : Fin a) (⟨l % b, Nat.mod_lt _ hb⟩ : Fin b))

/-- The entry at an index is the reading at the index's two coordinates. -/
theorem rd2_eq {a b : ℕ} (ha : 0 < a) (hb : 0 < b) (X : (⟨2, ![a, b]⟩ : Shape).Idx → α) (i : (⟨2, ![a, b]⟩ : Shape).Idx)
    (r l : ℕ) (h0 : (i 0).val = r) (h1 : (i 1).val = l) : X i = rd2 ha hb X r l := by
  unfold rd2
  refine congrArg X (funext fun ax => Fin.ext ?_)
  match ax with
  | ⟨0, _⟩ =>
    show (i 0).val = r % a
    rw [← h0]; exact (Nat.mod_eq_of_lt (idx2_lt0 i)).symm
  | ⟨1, _⟩ =>
    show (i 1).val = l % b
    rw [← h1]; exact (Nat.mod_eq_of_lt (idx2_lt1 i)).symm

/-- At a row and a column below the extents the reading is the entry. -/
theorem rd2_ix2 {a b : ℕ} (ha : 0 < a) (hb : 0 < b) (X : (⟨2, ![a, b]⟩ : Shape).Idx → α) (r : Fin a) (l : Fin b) :
    rd2 ha hb X r.val l.val = X (ix2 r l) :=
  (rd2_eq ha hb X (ix2 r l) r.val l.val rfl rfl).symm

end Cert.LibNatRead

end
-- ==== Proof.LibRangeSteps.lean ====
/-
  A sum over an initial range of natural numbers, cut into consecutive steps of equal length, and a step whose
  summand vanishes from some position on.

  `sum_range_steps`: the sum over the first t·n numbers is the sum over the steps s < t of the sums over the n
  positions n·s + j of step s. `sum_range_masked`: a sum over a + b positions whose summand is zero from position a on
  is the sum over the first a. Both hold in every additive commutative monoid — on the extended reals as well, where a
  finite sum may be regrouped freely although distributivity and cancellation fail at the infinities.
-/
import Mathlib

open scoped BigOperators

namespace Cert.LibRangeSteps

/-- The first `t` steps of `n` positions, step by step. -/
theorem sum_range_steps {A : Type*} [AddCommMonoid A] (n : ℕ) (f : ℕ → A) :
    ∀ t : ℕ, ∑ k ∈ Finset.range (t * n), f k = ∑ s ∈ Finset.range t, ∑ j ∈ Finset.range n, f (n * s + j)
  | 0 => by simp
  | t + 1 => by
    rw [Nat.succ_mul, Finset.sum_range_add, sum_range_steps n f t,
      Finset.sum_range_succ (fun s => ∑ j ∈ Finset.range n, f (n * s + j)) t]
    congr 1
    exact Finset.sum_congr rfl fun j _ => by rw [Nat.mul_comm]

/-- A sum whose summand vanishes from position `a` on is the sum over the first `a` positions. -/
theorem sum_range_masked {A : Type*} [AddCommMonoid A] (a b : ℕ) (g : ℕ → A) :
    ∑ j ∈ Finset.range (a + b), (if j < a then g j else 0) = ∑ j ∈ Finset.range a, g j := by
  rw [Finset.sum_range_add, Finset.sum_congr rfl (fun j hj => if_pos (Finset.mem_range.mp hj)),
    Finset.sum_eq_zero (s := Finset.range b) (fun j _ => if_neg (by omega)), add_zero]

end Cert.LibRangeSteps
-- ==== Proof.Contraction.lean ====
/-
  The contraction out(p, o) = Σ_k x(p, k) · m(k, o) over the 100000 positions k, cut the way the grid walks it:
  48 full steps of 2048 positions and a last, partial step of 1696.

  Sums here are over ranges of natural numbers, the summand a total function of the position (the matrices are
  read at natural numbers reduced modulo their extents), so that regrouping is arithmetic on positions only.
  Everything is stated in an additive commutative monoid: on the extended reals a sum may be regrouped and
  reordered freely, and nothing here distributes or cancels.
-/
import Mathlib
import proofs.«169486_g74792560493228_cont_9to1c4b_67_9_alg».proof.Proof.LibNatRead
import proofs.«169486_g74792560493228_cont_9to1c4b_67_9_alg».proof.Proof.LibRangeSteps

open scoped BigOperators

noncomputable section

namespace Cert.Contraction

open Idealize.ShloMosaic Idealize.ShloMosaic.ValueIdx Cert.LibNatRead

/-- The product at position `k` of the contracted axis for the output entry (p, o): m(k, o) · x(p, k). -/
def term (X : (⟨2, ![1024, 100000]⟩ : Shape).Idx → EReal) (M : (⟨2, ![100000, 32]⟩ : Shape).Idx → EReal) (p o k : ℕ) : EReal :=
  rd2 (by norm_num) (by norm_num) M k o * rd2 (by norm_num) (by norm_num) X p k

/-- The whole contraction, entry by entry of the [1024, 32] result. -/
def G (X : (⟨2, ![1024, 100000]⟩ : Shape).Idx → EReal) (M : (⟨2, ![100000, 32]⟩ : Shape).Idx → EReal) :
    (⟨2, ![1024, 32]⟩ : Shape).Idx → EReal :=
  fun i => ∑ k ∈ Finset.range 100000, term X M (i 0).val (i 1).val k

/-- All 100000 positions: 48 full steps, then the 1696 positions from 98304 on. -/
theorem sum_all {A : Type*} [AddCommMonoid A] (f : ℕ → A) :
    ∑ k ∈ Finset.range 100000, f k
      = (∑ s ∈ Finset.range 48, ∑ j ∈ Finset.range 2048, f (2048 * s + j)) + ∑ j ∈ Finset.range 1696, f (98304 + j) := by
  rw [show (100000 : ℕ) = 48 * 2048 + 1696 from rfl, Finset.sum_range_add, Cert.LibRangeSteps.sum_range_steps 2048 f 48]

/-- A step of 2048 positions whose summand vanishes from position 1696 on is the sum over the first 1696. -/
theorem sum_masked {A : Type*} [AddCommMonoid A] (g : ℕ → A) :
    ∑ j ∈ Finset.range 2048, (if j < 1696 then g j else 0) = ∑ j ∈ Finset.range 1696, g j :=
  Cert.LibRangeSteps.sum_range_masked 1696 352 g

end Cert.Contraction

end
-- ==== Proof.LibNatReadTranspose.lean ====
/-
  A transposed matrix read at a pair of natural numbers is the matrix read at the swapped pair (both readings
  reduce each number modulo its extent): the host's transpose in front of a blocked operand, with no bound carried.
-/
import proofs.«169486_g74792560493228_cont_9to1c4b_67_9_alg».proof.Proof.LibNatRead
import Idealize.ShloMosaic.Lib.ValueLayout

noncomputable section

namespace Cert.LibNatReadTranspose

open Idealize.ShloMosaic Idealize.ShloMosaic.ValueIdx Cert.LibNatRead

theorem rd2_transpose {α : Type} {a b : ℕ} (ha : 0 < a) (hb : 0 < b) (x : (⟨2, ![a, b]⟩ : Shape).Idx → α)
    (h : (⟨2, ![a, b]⟩ : Shape).Transposes [1, 0] ⟨2, ![b, a]⟩) (r l : ℕ) :
    rd2 hb ha (transpose ⟨2, ![b, a]⟩ [1, 0] x h) r l = rd2 ha hb x l r := by
  unfold rd2
  exact transpose_ix2_apply x h _ _

end Cert.LibNatReadTranspose

end
-- ==== Proof.IdealValue.lean ====
/-
  What the idealized kernel computes, on the extended reals: the result array ends holding, at entry (p, o), the sum
  over all 100000 positions k of m(k, o) · x(p, k).

  The host transposes both arguments, so block t of the left operand holds m(2048 t + j, o) at (o, j) and block t of
  the right operand x(p, 2048 t + j) at (j, p). After point t < 48 the accumulator's entry (o, p) is the sum of the
  products over the positions below 2048 (t + 1); the last point adds the 1696 products from position 98304 on, the
  masked positions contributing zero times zero. The one write-back, at the last point, covers the whole [32, 1024]
  array, and the host transposes it into the [1024, 32] result.
-/
import proofs.«169486_g74792560493228_cont_9to1c4b_67_9_alg».proof.Proof.KernelIdealFrame
import proofs.«169486_g74792560493228_cont_9to1c4b_67_9_alg».proof.Proof.StepValue
import proofs.«169486_g74792560493228_cont_9to1c4b_67_9_alg».proof.Proof.Contraction
import proofs.«169486_g74792560493228_cont_9to1c4b_67_9_alg».proof.Proof.LibNatReadTranspose
import Idealize.ShloMosaic.Lib.ValueLayout
import Idealize.ShloMosaic.Lib.StableHlo.Run
import Idealize.ShloMosaic.Lib.Pipeline.Value

set_option maxRecDepth 16384

noncomputable section

namespace Cert.KernelIdeal.FinalValue

open Cert.KernelIdeal Cert.KernelIdeal.Gen Cert.KernelIdeal.Hand Cert.KernelIdeal.StepValue Cert.Contraction Cert.LibNatRead
open Idealize.ShloMosaic Idealize.ShloMosaic.TcCoe Idealize.ShloMosaic.ValueIdx Idealize.ShloMosaic.Tactic
open Idealize.SL Idealize.SL.Sem
open Idealize.ShloMosaic.Pipeline (Dat Cfg Window)
open scoped BigOperators

variable (m : (ℓ : Loc nD τ sig) → Buf (Elt Ideal) ℓ) (ρ : Dev nD → PrngReg)

/-- The two argument arrays as launched, as matrices of extended reals. -/
abbrev Xa (c : Dev nD) : (⟨2, ![1024, 100000]⟩ : Shape).Idx → EReal := m ((c : Thread nD τ).loc main_arg0)
abbrev Ma (c : Dev nD) : (⟨2, ![100000, 32]⟩ : Shape).Idx → EReal := m ((c : Thread nD τ).loc main_arg1)

/-! ## The host's transposes before the region -/

theorem V_v0 (c : Dev nD) : (V m c main_v0 : S100000x1024.Idx → EReal)
    = transpose S100000x1024 [1, 0] (Xa m c) transposes_S1024x100000_S100000x1024_1_0 := by
  show StableHlo.after hostOps0 (fun b => m (c, b)) (Proc.devRef .tc main_v0) = _
  after_results
theorem V_v1 (c : Dev nD) : (V m c main_v1 : S32x100000.Idx → EReal)
    = transpose S32x100000 [1, 0] (Ma m c) transposes_S100000x32_S32x100000_1_0 := by
  show StableHlo.after hostOps0 (fun b => m (c, b)) (Proc.devRef .tc main_v1) = _
  after_results

/-! ## The blocks -/

theorem idx0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Where the fetch filled it, the left operand's buffer at (o, j) holds m(2048 t + j, o); -/
theorem xb0_term (c : Dev nD) (t : Fin cfg0.N) (o : Fin 32) (j : Fin 2048) (hm : win0_0.moved (grid0.coords t) (ix2 o j) = true) :
    xb0 m c t (ix2 o j) = rd2 (by norm_num) (by norm_num) (Ma m c) (2048 * t.val + j.val) o.val := by
  unfold xb0 Window.fill
  rw [dif_pos hm]
  unfold iblk
  show (V m c main_v1 : S32x100000.Idx → EReal) (((cfg0.win 0).blk t).view.emb _) = _
  refine (rd2_eq (a := 32) (b := 100000) (by norm_num) (by norm_num) (V m c main_v1 : S32x100000.Idx → EReal) _ o.val (2048 * t.val + j.val) ?_ ?_).trans ?_
  · show win0_0.index t (0 : Fin 2) * 32 + 1 * o.val = o.val
    rw [(idx0 t).1]; omega
  · show win0_0.index t (1 : Fin 2) * 2048 + 1 * j.val = 2048 * t.val + j.val
    rw [(idx0 t).2]; omega
  · rw [V_v1]; exact Cert.LibNatReadTranspose.rd2_transpose _ _ _ _ _ _
/-- the right operand's at (j, p) holds x(p, 2048 t + j). -/
theorem xb1_term (c : Dev nD) (t : Fin cfg0.N) (j : Fin 2048) (p : Fin 1024) (hm : win0_1.moved (grid0.coords t) (ix2 j p) = true) :
    xb1 m c t (ix2 j p) = rd2 (by norm_num) (by norm_num) (Xa m c) p.val (2048 * t.val + j.val) := by
  unfold xb1 Window.fill
  rw [dif_pos hm]
  unfold iblk
  show (V m c main_v0 : S100000x1024.Idx → EReal) (((cfg0.win 1).blk t).view.emb _) = _
  refine (rd2_eq (a := 100000) (b := 1024) (by norm_num) (by norm_num) (V m c main_v0 : S100000x1024.Idx → EReal) _ (2048 * t.val + j.val) p.val ?_ ?_).trans ?_
  · show win0_1.index t (0 : Fin 2) * 2048 + 1 * j.val = 2048 * t.val + j.val
    rw [(idx1 t).1]; omega
  · show win0_1.index t (1 : Fin 2) * 1024 + 1 * p.val = p.val
    rw [(idx1 t).2]; omega
  · rw [V_v0]; exact Cert.LibNatReadTranspose.rd2_transpose _ _ _ _ _ _

/-- Before the last point the fetch fills the whole buffer; -/
theorem moved0 (t : Fin cfg0.N) (ht : t.val < 48) (jj : S32x2048.Idx) : win0_0.moved (grid0.coords t) jj = true :=
  (win0_0.moved_iff _ jj).mpr fun a => by
    have hlt := (jj a).isLt
    have hc : win0_0.clip (grid0.coords t) a = none := clip0_none t ht a
    unfold Window.xsize; rw [hc]; exact hlt
theorem moved1 (t : Fin cfg0.N) (ht : t.val < 48) (jj : S2048x1024.Idx) : win0_1.moved (grid0.coords t) jj = true :=
  (win0_1.moved_iff _ jj).mpr fun a => by
    have hlt := (jj a).isLt
    have hc : win0_1.clip (grid0.coords t) a = none := clip1_none t ht a
    unfold Window.xsize; rw [hc]; exact hlt
/-- at the last point positions 0..1695 of the contracted axis. -/
theorem moved0_last (t : Fin cfg0.N) (ht : ¬t.val < 48) (o : Fin 32) (j : Fin 2048) (hj : j.val < 1696) :
    win0_0.moved (grid0.coords t) (ix2 o j) = true :=
  (win0_0.moved_iff _ _).mpr fun a => by
    rw [xsize0_last t ht a]
    match a with
    | ⟨0, _⟩ => exact o.isLt
    | ⟨1, _⟩ => exact hj
theorem moved1_last (t : Fin cfg0.N) (ht : ¬t.val < 48) (j : Fin 2048) (p : Fin 1024) (hj : j.val < 1696) :
    win0_1.moved (grid0.coords t) (ix2 j p) = true :=
  (win0_1.moved_iff _ _).mpr fun a => by
    rw [xsize1_last t ht a]
    match a with
    | ⟨0, _⟩ => exact hj
    | ⟨1, _⟩ => exact p.isLt

/-! ## One step's sum, and the accumulation -/

/-- A full step: the 2048 products of step t. -/
theorem step_sum (c : Dev nD) (t : Fin cfg0.N) (ht : t.val < 48) (o : Fin 32) (p : Fin 1024) :
    ∑ j : Fin 2048, xb0 m c t (ix2 o j) * xb1 m c t (ix2 j p)
      = ∑ j ∈ Finset.range 2048, term (Xa m c) (Ma m c) p.val o.val (2048 * t.val + j) := by
  rw [Finset.sum_range (fun j => term (Xa m c) (Ma m c) p.val o.val (2048 * t.val + j))]
  refine Finset.sum_congr rfl fun j _ => ?_
  rw [xb0_term m c t o j (moved0 t ht _), xb1_term m c t j p (moved1 t ht _)]
  rfl

/-- The masked step of the last point: the 1696 products from position 98304 on. -/
theorem last_sum (c : Dev nD) (t : Fin cfg0.N) (ht : ¬t.val < 48) (o : Fin 32) (p : Fin 1024) :
    ∑ j : Fin 2048, (if j.val < 1696 then xb0 m c t (ix2 o j) else 0) * (if j.val < 1696 then xb1 m c t (ix2 j p) else 0)
      = ∑ j ∈ Finset.range 1696, term (Xa m c) (Ma m c) p.val o.val (98304 + j) := by
  have hN : t.val < 49 := lt_of_lt_of_eq t.isLt (show cfg0.N = 49 from N_0)
  have h48 : t.val = 48 := by omega
  rw [← sum_masked (fun j => term (Xa m c) (Ma m c) p.val o.val (98304 + j)),
    Finset.sum_range (fun j => if j < 1696 then term (Xa m c) (Ma m c) p.val o.val (98304 + j) else 0)]
  refine Finset.sum_congr rfl fun j _ => ?_
  by_cases hj : j.val < 1696
  · rw [if_pos hj, if_pos hj, if_pos hj, xb0_term m c t o j (moved0_last t ht o j hj), xb1_term m c t j p (moved1_last t ht j p hj), h48]
    rfl
  · rw [if_neg hj, if_neg hj, if_neg hj, mul_zero]

/-- After point n < 48 the accumulator's entry (o, p) is the sum of the products of steps 0..n. -/
theorem acc_eq (c : Dev nD) (o : Fin 32) (p : Fin 1024) : ∀ (n : ℕ) (hn : n < cfg0.N), n < 48 →
    acc m c n hn (ix2 o p)
      = ∑ s ∈ Finset.range (n + 1), ∑ j ∈ Finset.range 2048, term (Xa m c) (Ma m c) p.val o.val (2048 * s + j)
  | 0, hn, _ => by
    rw [acc_first m c ⟨0, hn⟩ rfl, step_apply, zero_apply, zero_add, step_sum m c ⟨0, hn⟩ (by norm_num) o p,
      Finset.sum_range_one]
  | n + 1, hn, h => by
    rw [acc_middle m c ⟨n + 1, hn⟩ (Nat.succ_ne_zero n) h, step_apply, step_sum m c ⟨n + 1, hn⟩ h o p,
      Finset.sum_range_succ (fun s => ∑ j ∈ Finset.range 2048, term (Xa m c) (Ma m c) p.val o.val (2048 * s + j)) (n + 1)]
    exact congrArg (· + _) (acc_eq c o p n (Nat.lt_of_succ_lt hn) (Nat.lt_of_succ_lt h))

/-- The whole contraction, as the [32, 1024] array the region leaves. -/
def accFinal (c : Dev nD) : S32x1024.Idx → EReal :=
  fun i => ∑ k ∈ Finset.range 100000, term (Xa m c) (Ma m c) (i 1).val (i 0).val k

theorem acc_final (c : Dev nD) (t : Fin cfg0.N) (ht : ¬t.val < 48) : acc m c t.val t.isLt = accFinal m c := by
  have hN : t.val < 49 := lt_of_lt_of_eq t.isLt (show cfg0.N = 49 from N_0)
  have h48 : t.val = 48 := by omega
  funext i
  obtain ⟨o, p, rfl⟩ : ∃ (o : Fin 32) (p : Fin 1024), i = ix2 o p := ⟨i 0, i 1, eq_ix2 i⟩
  rw [acc_last m c t (by omega) ht, last_apply, last_sum m c t ht, acc_eq m c o p (t.val - 1) _ (by omega)]
  unfold accFinal
  rw [sum_all, show t.val - 1 + 1 = 48 from by omega]

/-! ## The one write-back covers the array -/

set_option maxRecDepth 1000000 in
theorem flushed2_eq (c : Dev nD) (t : Fin cfg0.N) (hf : (cfg0.win 2).flush t = true) :
    (dats m 0 c).flushed 2 t = ((cfg0.win 2).blk t).view.read (Elt Ideal) (accFinal m c) := by
  have h48 : ¬t.val < 48 := by have := (flush0_2 t).mp hf; omega
  show (cfg0.win 2).cut (grid0.coords t) ((dats m 0 c).after 2 t) = _
  rw [after2, acc_final m c t h48]
  funext y
  show accFinal m c ((cfg0.win 2).xinj (grid0.coords t) y) = accFinal m c (((cfg0.win 2).blk t).view.emb y)
  refine congrArg (accFinal m c) (funext fun a => Fin.ext ?_)
  match a with
  | ⟨0, _⟩ =>
    show (y 0).val = win0_2.index t (0 : Fin 2) * 32 + 1 * (y 0).val
    rw [(idx2 t).1]; omega
  | ⟨1, _⟩ =>
    show (y 1).val = win0_2.index t (1 : Fin 2) * 1024 + 1 * (y 1).val
    rw [(idx2 t).2]; omega

theorem mem_blk2 (t : Fin cfg0.N) (i : S32x1024.Idx) :
    i ∈ ((cfg0.win 2).blk t).view.set ↔ ∀ a : Fin 2, win0_2.index t a * S32x1024.size a ≤ (i a).val ∧ (i a).val < win0_2.index t a * S32x1024.size a + S32x1024.size a := by
  show i ∈ ((View.whole main_v2).slice (win0_2.rect t)).set ↔ _
  rw [View.set_slice_whole, Rect.mem_set_unit]
  exact Iff.rfl

theorem final2 (c : Dev nD) : (dats m 0 c).arrAt 2 cfg0.N = accFinal m c := by
  refine (dats m 0 c).arrAt_eq_of_cover 2 (accFinal m c) (fun t hf => flushed2_eq m c t hf) fun i => ?_
  refine ⟨⟨48, by rw [show cfg0.N = 49 from N_0]; norm_num⟩, (flush0_2 _).mpr rfl, ?_⟩
  rw [mem_blk2]
  intro a
  match a with
  | ⟨0, _⟩ =>
    show win0_2.index _ (0 : Fin 2) * 32 ≤ (i 0).val ∧ (i 0).val < win0_2.index _ (0 : Fin 2) * 32 + 32
    rw [(idx2 _).1]; have h0 : (i 0).val < 32 := (i 0).isLt; omega
  | ⟨1, _⟩ =>
    show win0_2.index _ (1 : Fin 2) * 1024 ≤ (i 1).val ∧ (i 1).val < win0_2.index _ (1 : Fin 2) * 1024 + 1024
    rw [(idx2 _).2]; have h1 : (i 1).val < 1024 := (i 1).isLt; omega

/-! ## The host's transpose after the region, and the run -/

theorem tail_v3 (c : Dev nD) :
    Pipeline.afterTail₀ cfgs (dats m) 0 (V0 m) [hostOps1] c main_v3 = G (Xa m c) (Ma m c) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v2) = accFinal m c from
    (Pipeline.withArrays_arr spec0 launch0.win.arr_inj c _ _ 2).trans (final2 m c)]
  funext i
  obtain ⟨p, o, rfl⟩ : ∃ (p : Fin 1024) (o : Fin 32), i = ix2 p o := ⟨i 0, i 1, eq_ix2 i⟩
  rw [transpose_ix2_apply]
  rfl

/-- The idealized kernel's run, read: the result array ends at the contraction of the argument arrays, and the
    argument arrays as launched. -/
theorem run : θ_run defs (onTc (τ := τ) (main (F := Ideal))) ⟨m, fun _ => 0, ρ⟩ fun r => ∀ c : Dev nD,
      r.2.mem ((c.tc : Thread nD τ).loc main_v3) = G (Xa m c) (Ma m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_v3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.FinalValue

end
-- ==== Proof.RefSide.lean ====
/-
  The reference's dot_general, on the extended reals, is the same contraction: at entry (p, o) the sum over the
  100000 positions k of x(p, k) · m(k, o), which is the sum of m(k, o) · x(p, k) since multiplication of extended
  reals is commutative.
-/
import proofs.«169486_g74792560493228_cont_9to1c4b_67_9_alg».proof.Proof.Gen.ReferenceIdeal.Read
import proofs.«169486_g74792560493228_cont_9to1c4b_67_9_alg».proof.Proof.Contraction

noncomputable section

namespace Cert.ReferenceIdeal.RefValue

open Cert.ReferenceIdeal Cert.ReferenceIdeal.Read Cert.Contraction Cert.LibNatRead
open Idealize.ShloMosaic Idealize.ShloMosaic.ValueIdx
open scoped BigOperators

theorem ref_eq (x0 : (⟨S1024x100000, .f32⟩ : BufTy).Contents (Elt Ideal)) (x1 : (⟨S100000x32, .f32⟩ : BufTy).Contents (Elt Ideal)) :
    val_main_v0 (F := Ideal) x0 x1 = G x0 x1 := by
  funext i
  rw [val_main_v0_apply]
  unfold G
  rw [Finset.sum_range (fun k => term x0 x1 (i 0).val (i 1).val k)]
  refine Finset.sum_congr rfl fun k _ => ?_
  unfold term
  rw [mul_comm]
  exact congrArg₂ (· * ·) (rd2_eq (a := 100000) (b := 32) (by norm_num) (by norm_num) x1 (ridx_main_v0 i k) k.val (i 1).val rfl rfl)
    (rd2_eq (a := 1024) (b := 100000) (by norm_num) (by norm_num) x0 (lidx_main_v0 i k) (i 0).val k.val rfl rfl)

end Cert.ReferenceIdeal.RefValue

end
-- ==== Proof.lean ====
/-
  The certificate of the projection kernel: out = x · m for x of shape [1024, 100000] and m of shape [100000, 32].

  The kernel transposes both arguments on the host, walks the contracted axis of length 100000 in 49 grid steps of
  2048 positions, accumulating m^T-block times x^T-block partial products into a [32, 1024] block kept across the
  grid, and transposes the block into the [1024, 32] result. The last step overhangs the arrays: only 1696 of its
  2048 positions lie inside, the fetch leaves anything in the rest of the staging buffers, and the body replaces both
  operands by zero there before multiplying.

  The three frames: each program terminates from any memory, faults nowhere and leaves its arguments as launched. For
  the kernel, at both instances, this is the run of the accumulation over the grid (the body run in its three control
  cases: first point, middle points, last point), stated so that nothing depends on the unnamed part of the staging
  buffers. The idealization rewrote no operation, so that claim is trivial. On the extended reals both programs
  compute, at entry (p, o), the sum over the 100000 positions k of m(k, o) · x(p, k): the kernel as 48 full steps and
  one masked step whose masked positions contribute zero times zero, the reference as one contraction with the
  factors in the other order. The two agree by commutativity of the product and regrouping of a finite sum in an
  additive commutative monoid; no distributivity or cancellation is used, so the finiteness precondition is not needed.
-/
import proofs.«169486_g74792560493228_cont_9to1c4b_67_9_alg».proof.Defs
import proofs.«169486_g74792560493228_cont_9to1c4b_67_9_alg».proof.Proof.Gen.Kernel
import proofs.«169486_g74792560493228_cont_9to1c4b_67_9_alg».proof.Proof.Gen.KernelIdeal
import proofs.«169486_g74792560493228_cont_9to1c4b_67_9_alg».proof.Proof.Gen.ReferenceIdeal
import proofs.«169486_g74792560493228_cont_9to1c4b_67_9_alg».proof.Proof.Gen.Pre_finite_inputs
import proofs.«169486_g74792560493228_cont_9to1c4b_67_9_alg».proof.Proof.Gen.ReferenceIdeal.Run
import proofs.«169486_g74792560493228_cont_9to1c4b_67_9_alg».proof.Proof.Gen.ReferenceIdeal.Read
import proofs.«169486_g74792560493228_cont_9to1c4b_67_9_alg».proof.Proof.KernelFrame
import proofs.«169486_g74792560493228_cont_9to1c4b_67_9_alg».proof.Proof.KernelIdealFrame
import proofs.«169486_g74792560493228_cont_9to1c4b_67_9_alg».proof.Proof.IdealValue
import proofs.«169486_g74792560493228_cont_9to1c4b_67_9_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Hand.frame m ρ
/-- So does its idealization. -/
theorem frame_kernelIdeal : Cert.frame_KernelIdeal := fun m ρ _ => Cert.KernelIdeal.Hand.frame m ρ
/-- The reference is one host operation: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the contraction of the argument arrays. -/
theorem algebraic : Cert.algebraic_KernelIdeal_ReferenceIdeal := by
  intro m ρ m' ρ' _ hagree
  refine ⟨fun c => Cert.Contraction.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.FinalValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
